-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S1800000 : Shape := ⟨1, ![1800000]⟩
abbrev S200000 : Shape := ⟨1, ![200000]⟩
abbrev S20000 : Shape := ⟨1, ![20000]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg13 : FVec F S256x47 .f32) (main_arg14 : FVec F S256x47 .f32) (main_arg15 : FVec F S47 .f32) (main_v33 : IVec S_ 1) : IVec S_ 1 :=
  let main_v34 : FVec F S256x47 .f32 := Host.absf main_arg13
  let main_cst_12 : FVec F S_ .f32 := constant S_ .f32 0x7F800000#32
  let main_v35 : FVec F S256x47 .f32 := broadcastInDim S256x47 ![] bcast_S_S256x47 main_cst_12
  let main_v36 : IVec S256x47 1 := cmpf .olt main_v34 main_v35
  let main_c_13 : IVec S_ 1 := constantI S_ 1 1#1
  let main_v37 : IVec S_ 1 := (fun x v => Host.reduce IntOp.andi x v reducesTo_S256x47_S_d0_1 h_S_) main_v36 main_c_13
  let main_v38 : IVec S_ 1 := andi main_v33 main_v37
  let main_v39 : FVec F S256x47 .f32 := Host.absf main_arg14
  let main_cst_14 : FVec F S_ .f32 := constant S_ .f32 0x7F800000#32
  let main_v40 : FVec F S256x47 .f32 := broadcastInDim S256x47 ![] bcast_S_S256x47 main_cst_14
  let main_v41 : IVec S256x47 1 := cmpf .olt main_v39 main_v40
  let main_c_15 : IVec S_ 1 := constantI S_ 1 1#1
  let main_v42 : IVec S_ 1 := (fun x v => Host.reduce IntOp.andi x v reducesTo_S256x47_S_d0_1 h_S_) main_v41 main_c_15
  let main_v43 : IVec S_ 1 := andi main_v38 main_v42
  let main_v44 : FVec F S47 .f32 := Host.absf main_arg15
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg10 : FVec F S256x256 .f32) (main_arg11 : FVec F S256x256 .f32) (main_arg12 : FVec F S256 .f32) (main_arg13 : FVec F S256x47 .f32) (main_arg14 : FVec F S256x47 .f32) (main_arg15 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_v33

def fn {F : FTy → Type} [FloatOps F] (main_arg0 : FVec F S400000x128 .f32) (main_arg1 : IVec S1800000 32) (main_arg2 : IVec S1800000 32) (main_arg3 : IVec S200000 32) (main_arg4 : IVec S200000 32) (main_arg5 : IVec S20000 32) (main_arg6 : IVec S20000 32) (main_arg7 : FVec F S128x256 .f32) (main_arg8 : FVec F S128x256 .f32) (main_arg9 : FVec F S256 .f32) (main_arg10 : FVec F S256x256 .f32) (main_arg11 : FVec F S256x256 .f32) (main_arg12 : FVec F S256 .f32) (main_arg13 : FVec F S256x47 .f32) (main_arg14 : FVec F S256x47 .f32) (main_arg15 : FVec F S47 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S128x256 .f32 := Host.absf main_arg7
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg8
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_v13 main_v16
-- ==== Kernel.lean ====
abbrev S400000x128 : Shape := ⟨2, ![400000, 128]⟩
abbrev S1800000 : Shape := ⟨1, ![1800000]⟩
abbrev S200000 : Shape := ⟨1, ![200000]⟩
abbrev S20000 : Shape := ⟨1, ![20000]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩
abbrev S1800000x1 : Shape := ⟨2, ![1800000, 1]⟩
abbrev S1800000x128 : Shape := ⟨2, ![1800000, 128]⟩
abbrev S120000x128 : Shape := ⟨2, ![120000, 128]⟩
abbrev S120000x1 : Shape := ⟨2, ![120000, 1]⟩
abbrev S1x256 : Shape := ⟨2, ![1, 256]⟩
abbrev S120000x256 : Shape := ⟨2, ![120000, 256]⟩
abbrev S3000x128 : Shape := ⟨2, ![3000, 128]⟩
abbrev S3000x256 : Shape := ⟨2, ![3000, 256]⟩
abbrev S200000x1 : Shape := ⟨2, ![200000, 1]⟩
abbrev S200000x256 : Shape := ⟨2, ![200000, 256]⟩
abbrev S20000x256 : Shape := ⟨2, ![20000, 256]⟩
abbrev S20000x1 : Shape := ⟨2, ![20000, 1]⟩
abbrev S2000x256 : Shape := ⟨2, ![2000, 256]⟩
abbrev S4000x256 : Shape := ⟨2, ![4000, 256]⟩
abbrev S4000x1 : Shape := ⟨2, ![4000, 1]⟩
abbrev S1x47 : Shape := ⟨2, ![1, 47]⟩
abbrev S4000x47 : Shape := ⟨2, ![4000, 47]⟩

abbrev nBuf : Space → Nat
  | .hbm => 97
  | .vmem => 24
  | .smem => 0
  | _ => 0

abbrev bufTy : (tb : Table) → Fin (tcTables nBuf tb) → BufTy
  | .hbm, ⟨0, _⟩ => ⟨S400000x128, .f32⟩
  | .hbm, ⟨1, _⟩ => ⟨S1800000, .i32⟩
  | .hbm, ⟨2, _⟩ => ⟨S1800000, .i32⟩
  | .hbm, ⟨3, _⟩ => ⟨S200000, .i32⟩
  | .hbm, ⟨4, _⟩ => ⟨S200000, .i32⟩
  | .hbm, ⟨5, _⟩ => ⟨S20000, .i32⟩
  | .hbm, ⟨6, _⟩ => ⟨S20000, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S_, .i32⟩
  | .hbm, ⟨17, _⟩ => ⟨S1800000, .i32⟩
  | .hbm, ⟨18, _⟩ => ⟨S1800000, .i1⟩
  | .hbm, ⟨19, _⟩ => ⟨S_, .i32⟩
  | .hbm, ⟨20, _⟩ => ⟨S1800000, .i32⟩
  | .hbm, ⟨21, _⟩ => ⟨S1800000, .i32⟩
  | .hbm, ⟨22, _⟩ => ⟨S1800000, .i32⟩
  | .hbm, ⟨23, _⟩ => ⟨S1800000x1, .i32⟩
  | .hbm, ⟨24, _⟩ => ⟨S1800000x128, .f32⟩
  | .hbm, ⟨25, _⟩ => ⟨S_, .f32⟩
  | .hbm, ⟨26, _⟩ => ⟨S120000x128, .f32⟩
  | .hbm, ⟨27, _⟩ => ⟨S1800000x1, .i32⟩
  | .hbm, ⟨28, _⟩ => ⟨S120000x128, .f32⟩
  | .hbm, ⟨29, _⟩ => ⟨S_, .f32⟩
  | .hbm, ⟨30, _⟩ => ⟨S1800000x1, .f32⟩
  | .hbm, ⟨31, _⟩ => ⟨S_, .f32⟩
  | .hbm, ⟨32, _⟩ => ⟨S120000x1, .f32⟩
  | .hbm, ⟨33, _⟩ => ⟨S1800000x1, .i32⟩
  | .hbm, ⟨34, _⟩ => ⟨S120000x1, .f32⟩
  | .hbm, ⟨35, _⟩ => ⟨S_, .f32⟩
  | .hbm, ⟨36, _⟩ => ⟨S120000x1, .f32⟩
  | .hbm, ⟨37, _⟩ => ⟨S120000x1, .f32⟩
  | .hbm, ⟨38, _⟩ => ⟨S120000x128, .f32⟩
  | .hbm, ⟨39, _⟩ => ⟨S120000x128, .f32⟩
  | .hbm, ⟨40, _⟩ => ⟨S120000x128, .f32⟩
  | .hbm, ⟨41, _⟩ => ⟨S1x256, .f32⟩
  | .hbm, ⟨42, _⟩ => ⟨S120000x256, .f32⟩
  | .hbm, ⟨43, _⟩ => ⟨S_, .i32⟩
  | .hbm, ⟨44, _⟩ => ⟨S200000, .i32⟩
  | .hbm, ⟨45, _⟩ => ⟨S200000, .i1⟩
  | .hbm, ⟨46, _⟩ => ⟨S_, .i32⟩
  | .hbm, ⟨47, _⟩ => ⟨S200000, .i32⟩
  | .hbm, ⟨48, _⟩ => ⟨S200000, .i32⟩
  | .hbm, ⟨49, _⟩ => ⟨S200000, .i32⟩
  | .hbm, ⟨50, _⟩ => ⟨S200000x1, .i32⟩
  | .hbm, ⟨51, _⟩ => ⟨S200000x256, .f32⟩
  | .hbm, ⟨52, _⟩ => ⟨S_, .f32⟩
  | .hbm, ⟨53, _⟩ => ⟨S20000x256, .f32⟩
  | .hbm, ⟨54, _⟩ => ⟨S200000x1, .i32⟩
  | .hbm, ⟨55, _⟩ => ⟨S20000x256, .f32⟩
  | .hbm, ⟨56, _⟩ => ⟨S_, .f32⟩
  | .hbm, ⟨57, _⟩ => ⟨S200000x1, .f32⟩
  | .hbm, ⟨58, _⟩ => ⟨S_, .f32⟩
  | .hbm, ⟨59, _⟩ => ⟨S20000x1, .f32⟩
  | .hbm, ⟨60, _⟩ => ⟨S200000x1, .i32⟩
  | .hbm, ⟨61, _⟩ => ⟨S20000x1, .f32⟩
  | .hbm, ⟨62, _⟩ => ⟨S_, .f32⟩
  | .hbm, ⟨63, _⟩ => ⟨S20000x1, .f32⟩
  | .hbm, ⟨64, _⟩ => ⟨S20000x1, .f32⟩
  | .hbm, ⟨65, _⟩ => ⟨S20000x256, .f32⟩
  | .hbm, ⟨66, _⟩ => ⟨S20000x256, .f32⟩
  | .hbm, ⟨67, _⟩ => ⟨S20000x256, .f32⟩
  | .hbm, ⟨68, _⟩ => ⟨S1x256, .f32⟩
  | .hbm, ⟨69, _⟩ => ⟨S20000x256, .f32⟩
  | .hbm, ⟨70, _⟩ => ⟨S_, .i32⟩
  | .hbm, ⟨71, _⟩ => ⟨S20000, .i32⟩
  | .hbm, ⟨72, _⟩ => ⟨S20000, .i1⟩
  | .hbm, ⟨73, _⟩ => ⟨S_, .i32⟩
  | .hbm, ⟨74, _⟩ => ⟨S20000, .i32⟩
  | .hbm, ⟨75, _⟩ => ⟨S20000, .i32⟩
  | .hbm, ⟨76, _⟩ => ⟨S20000, .i32⟩
  | .hbm, ⟨77, _⟩ => ⟨S20000x1, .i32⟩
  | .hbm, ⟨78, _⟩ => ⟨S20000x256, .f32⟩
  | .hbm, ⟨79, _⟩ => ⟨S_, .f32⟩
  | .hbm, ⟨80, _⟩ => ⟨S4000x256, .f32⟩
  | .hbm, ⟨81, _⟩ => ⟨S20000x1, .i32⟩
  | .hbm, ⟨82, _⟩ => ⟨S4000x256, .f32⟩
  | .hbm, ⟨83, _⟩ => ⟨S_, .f32⟩
  | .hbm, ⟨84, _⟩ => ⟨S20000x1, .f32⟩
  | .hbm, ⟨85, _⟩ => ⟨S_, .f32⟩
  | .hbm, ⟨86, _⟩ => ⟨S4000x1, .f32⟩
  | .hbm, ⟨87, _⟩ => ⟨S20000x1, .i32⟩
  | .hbm, ⟨88, _⟩ => ⟨S4000x1, .f32⟩
  | .hbm, ⟨89, _⟩ => ⟨S_, .f32⟩
  | .hbm, ⟨90, _⟩ => ⟨S4000x1, .f32⟩
  | .hbm, ⟨91, _⟩ => ⟨S4000x1, .f32⟩
  | .hbm, ⟨92, _⟩ => ⟨S4000x256, .f32⟩
  | .hbm, ⟨93, _⟩ => ⟨S4000x256, .f32⟩
  | .hbm, ⟨94, _⟩ => ⟨S4000x256, .f32⟩
  | .hbm, ⟨95, _⟩ => ⟨S1x47, .f32⟩
  | .hbm, ⟨96, _⟩ => ⟨S4000x47, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S3000x256, .f32⟩
  | .local _ .vmem, ⟨8, _⟩ => ⟨S3000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S4000x256, .f32⟩
  | .local _ .vmem, ⟨19, _⟩ => ⟨S4000x256, .f32⟩
  | .local _ .vmem, ⟨20, _⟩ => ⟨S256x47, .f32⟩
  | .local _ .vmem, ⟨21, _⟩ => ⟨S256x47, .f32⟩
  | .local _ .vmem, ⟨22, _⟩ => ⟨S1x47, .f32⟩
  | .local _ .vmem, ⟨23, _⟩ => ⟨S4000x47, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_13 : Ref sig .tc := ⟨.hbm, 83, rfl⟩
abbrev main_v52 : Ref sig .tc := ⟨.hbm, 84, rfl⟩
abbrev main_cst_14 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4000x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S4000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S256x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4000x47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  bcast_S_S1800000 : S_.BroadcastsInDim S1800000 (![] : Fin 0 → Fin S1800000.rank)
  bcast_S1800000_S1800000x1_0 : S1800000.BroadcastsInDim S1800000x1 (![0] : Fin 1 → Fin S1800000x1.rank)
  bcast_S_S120000x128 : S_.BroadcastsInDim S120000x128 (![] : Fin 0 → Fin S120000x128.rank)
  bcast_S_S1800000x1 : S_.BroadcastsInDim S1800000x1 (![] : Fin 0 → Fin S1800000x1.rank)
  bcast_S_S120000x1 : S_.BroadcastsInDim S120000x1 (![] : Fin 0 → Fin S120000x1.rank)
  bcast_S120000x1_S120000x128_0_1 : S120000x1.BroadcastsInDim S120000x128 (![0, 1] : Fin 2 → Fin S120000x128.rank)
  slices_S400000x128_S120000x128_0_0 : S400000x128.Slices ![0, 0] S120000x128
  shapeCasts_S256_S1x256 : S256.ShapeCasts S1x256
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3000x256 : S1x256.Broadcasts S3000x256
  inb_S3000x256_S3000x256_0_0 : ∀ a, (![0, 0] : Fin 2 → Nat) a + S3000x256.size a ≤ S3000x256.size a
  h_S3000x256 : 0 < S3000x256.numel
  bcast_S_S200000 : S_.BroadcastsInDim S200000 (![] : Fin 0 → Fin S200000.rank)
  bcast_S200000_S200000x1_0 : S200000.BroadcastsInDim S200000x1 (![0] : Fin 1 → Fin S200000x1.rank)
  bcast_S_S20000x256 : S_.BroadcastsInDim S20000x256 (![] : Fin 0 → Fin S20000x256.rank)
  bcast_S_S200000x1 : S_.BroadcastsInDim S200000x1 (![] : Fin 0 → Fin S200000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  slices_S120000x256_S20000x256_0_0 : S120000x256.Slices ![0, 0] S20000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  broadcasts_S1x256_S2000x256 : S1x256.Broadcasts S2000x256
  bcast_S_S20000 : S_.BroadcastsInDim S20000 (![] : Fin 0 → Fin S20000.rank)
  bcast_S20000_S20000x1_0 : S20000.BroadcastsInDim S20000x1 (![0] : Fin 1 → Fin S20000x1.rank)
  bcast_S_S4000x256 : S_.BroadcastsInDim S4000x256 (![] : Fin 0 → Fin S4000x256.rank)
  bcast_S_S4000x1 : S_.BroadcastsInDim S4000x1 (![] : Fin 0 → Fin S4000x1.rank)
  bcast_S4000x1_S4000x256_0_1 : S4000x1.BroadcastsInDim S4000x256 (![0, 1] : Fin 2 → Fin S4000x256.rank)
  slices_S20000x256_S4000x256_0_0 : S20000x256.Slices ![0, 0] S4000x256
  shapeCasts_S47_S1x47 : S47.ShapeCasts S1x47
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x47_S256x47_0_0 : ∀ a, (![0, 0] : Fin 2 → Nat) a + S256x47.size a ≤ S256x47.size a
  h_S256x47 : 0 < S256x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S4000x47 : S1x47.Broadcasts S4000x47
  inb_S4000x47_S4000x47_0_0 : ∀ a, (![0, 0] : Fin 2 → Nat) a + S4000x47.size a ≤ S4000x47.size a
  h_S4000x47 : 0 < S4000x47.numel
  gather_S400000x128_S1800000x1_S1800000x128_1_0_n_n_0_1_1128_wf : GatherDims.WF S400000x128 S1800000x1 S1800000x128 [1] [0] [] [0] [] 1 ![1, 128]
  scatter_S120000x128_S1800000x1_S1800000x128_1_0_0_1_wf : ScatterDims.WF S120000x128 S1800000x1 S1800000x128 [1] [0] [0] 1
  scatter_S120000x1_S1800000x1_S1800000x1_1_0_0_1_wf : ScatterDims.WF S120000x1 S1800000x1 S1800000x1 [1] [0] [0] 1
  dot_S3000x128_S128x256_S3000x256_1_0_0_1_n_n_wf : DotDims.WF S3000x128 S128x256 S3000x256 [1] [0] [0] [1] [] []
  gather_S120000x256_S200000x1_S200000x256_1_0_n_n_0_1_1256_wf : GatherDims.WF S120000x256 S200000x1 S200000x256 [1] [0] [] [0] [] 1 ![1, 256]
  scatter_S20000x256_S200000x1_S200000x256_1_0_0_1_wf : ScatterDims.WF S20000x256 S200000x1 S200000x256 [1] [0] [0] 1
  scatter_S20000x1_S200000x1_S200000x1_1_0_0_1_wf : ScatterDims.WF S20000x1 S200000x1 S200000x1 [1] [0] [0] 1
  dot_S2000x256_S256x256_S2000x256_1_0_0_1_n_n_wf : DotDims.WF S2000x256 S256x256 S2000x256 [1] [0] [0] [1] [] []
  gather_S20000x256_S20000x1_S20000x256_1_0_n_n_0_1_1256_wf : GatherDims.WF S20000x256 S20000x1 S20000x256 [1] [0] [] [0] [] 1 ![1, 256]
  scatter_S4000x256_S20000x1_S20000x256_1_0_0_1_wf : ScatterDims.WF S4000x256 S20000x1 S20000x256 [1] [0] [0] 1
  scatter_S4000x1_S20000x1_S20000x1_1_0_0_1_wf : ScatterDims.WF S4000x1 S20000x1 S20000x1 [1] [0] [0] 1
  dot_S4000x256_S256x47_S4000x47_1_0_0_1_n_n_wf : DotDims.WF S4000x256 S256x47 S4000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S120000x128.size a
  hwx0_0 : ∀ i : grid0.Coords, EltTy.bits .f32 = 32 ∨ (Rect.block (s := S120000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S120000x128.size a
  hwx0_1 : ∀ i : grid0.Coords, EltTy.bits .f32 = 32 ∨ (Rect.block (s := S120000x128) S3000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3000x256.size a ≤ S120000x256.size a
  hwx0_5 : ∀ i : grid0.Coords, EltTy.bits .f32 = 32 ∨ (Rect.block (s := S120000x256) S3000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S4000x256.size a
  hwx2_0 : ∀ i : grid2.Coords, EltTy.bits .f32 = 32 ∨ (Rect.block (s := S4000x256) S4000x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S4000x256.size a
  hwx2_1 : ∀ i : grid2.Coords, EltTy.bits .f32 = 32 ∨ (Rect.block (s := S4000x256) S4000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x47.size a ≤ S256x47.size a
  hwx2_2 : ∀ i : grid2.Coords, EltTy.bits .f32 = 32 ∨ (Rect.block (s := S256x47) S256x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .f32 = 32 ∨ (Rect.block (s := S256x47) S256x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S4000x47.size a ≤ S4000x47.size a
  hwx2_5 : ∀ i : grid2.Coords, EltTy.bits .f32 = 32 ∨ (Rect.block (s := S4000x47) S4000x47.size (cc2_transform_5 i) (hinb2_5 i)).WholeWords (EltTy.packing .f32)

variable [Facts₀]

def gather_S400000x128_S1800000x1_S1800000x128_1_0_n_n_0_1_1128 : GatherDims S400000x128 S1800000x1 S1800000x128 where
  offsetDims := [1]
  collapsedSliceDims := [0]
  operandBatchingDims := []
  startIndicesBatchingDims := []
  startIndexMap := [0]
  indexVectorDim := 1
  sliceSizes := ![1, 128]
  wf := gather_S400000x128_S1800000x1_S1800000x128_1_0_n_n_0_1_1128_wf
def scatter_S120000x128_S1800000x1_S1800000x128_1_0_0_1 : ScatterDims S120000x128 S1800000x1 S1800000x128 where
  updateWindowDims := [1]
  insertedWindowDims := [0]
  scatterDimsToOperandDims := [0]
  indexVectorDim := 1
  wf := scatter_S120000x128_S1800000x1_S1800000x128_1_0_0_1_wf
def scatter_S120000x1_S1800000x1_S1800000x1_1_0_0_1 : ScatterDims S120000x1 S1800000x1 S1800000x1 where
  updateWindowDims := [1]
  insertedWindowDims := [0]
  scatterDimsToOperandDims := [0]
  indexVectorDim := 1
  wf := scatter_S120000x1_S1800000x1_S1800000x1_1_0_0_1_wf
def dot_S3000x128_S128x256_S3000x256_1_0_0_1_n_n : DotDims S3000x128 S128x256 S3000x256 where
  lhsContracting := [1]
  rhsContracting := [0]
  lhsNonContracting := [0]
  rhsNonContracting := [1]
  lhsBatch := []
  rhsBatch := []
  wf := dot_S3000x128_S128x256_S3000x256_1_0_0_1_n_n_wf
def gather_S120000x256_S200000x1_S200000x256_1_0_n_n_0_1_1256 : GatherDims S120000x256 S200000x1 S200000x256 where
  offsetDims := [1]
  collapsedSliceDims := [0]
  operandBatchingDims := []
  startIndicesBatchingDims := []
  startIndexMap := [0]
  indexVectorDim := 1
  sliceSizes := ![1, 256]
  wf := gather_S120000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000x1_S200000x1_S200000x1_1_0_0_1 : ScatterDims S20000x1 S200000x1 S200000x1 where
  updateWindowDims := [1]
  insertedWindowDims := [0]
  scatterDimsToOperandDims := [0]
  indexVectorDim := 1
  wf := scatter_S20000x1_S200000x1_S200000x1_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S20000x1_S20000x256_1_0_n_n_0_1_1256 : GatherDims S20000x256 S20000x1 S20000x256 where
  offsetDims := [1]
  collapsedSliceDims := [0]
  operandBatchingDims := []
  startIndicesBatchingDims := []
  startIndexMap := [0]
  indexVectorDim := 1
  sliceSizes := ![1, 256]
  wf := gather_S20000x256_S20000x1_S20000x256_1_0_n_n_0_1_1256_wf
def scatter_S4000x256_S20000x1_S20000x256_1_0_0_1 : ScatterDims S4000x256 S20000x1 S20000x256 where
  updateWindowDims := [1]
  insertedWindowDims := [0]
  scatterDimsToOperandDims := [0]
  indexVectorDim := 1
  wf := scatter_S4000x256_S20000x1_S20000x256_1_0_0_1_wf
def scatter_S4000x1_S20000x1_S20000x1_1_0_0_1 : ScatterDims S4000x1 S20000x1 S20000x1 where
  updateWindowDims := [1]
  insertedWindowDims := [0]
  scatterDimsToOperandDims := [0]
  indexVectorDim := 1
  wf := scatter_S4000x1_S20000x1_S20000x1_1_0_0_1_wf
def dot_S4000x256_S256x47_S4000x47_1_0_0_1_n_n : DotDims S4000x256 S256x47 S4000x47 where
  lhsContracting := [1]
  rhsContracting := [0]
  lhsNonContracting := [0]
  rhsNonContracting := [1]
  lhsBatch := []
  rhsBatch := []
  wf := dot_S4000x256_S256x47_S4000x47_1_0_0_1_n_n_wf

abbrev win0_0 : Pipeline.Window sig grid0 :=
  Pipeline.Window.ofSpec (Memref.whole main_v18) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S3000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S4000x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v59) S4000x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S256x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S4000x47.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S400000x128 : Shape := ⟨2, ![400000, 128]⟩
abbrev S1800000 : Shape := ⟨1, ![1800000]⟩
abbrev S200000 : Shape := ⟨1, ![200000]⟩
abbrev S20000 : Shape := ⟨1, ![20000]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩
abbrev S1800000x1 : Shape := ⟨2, ![1800000, 1]⟩
abbrev S1800000x128 : Shape := ⟨2, ![1800000, 128]⟩
abbrev S120000x128 : Shape := ⟨2, ![120000, 128]⟩
abbrev S120000x1 : Shape := ⟨2, ![120000, 1]⟩
abbrev S120000x256 : Shape := ⟨2, ![120000, 256]⟩
abbrev S1x256 : Shape := ⟨2, ![1, 256]⟩
abbrev S200000x1 : Shape := ⟨2, ![200000, 1]⟩
abbrev S200000x256 : Shape := ⟨2, ![200000, 256]⟩
abbrev S20000x256 : Shape := ⟨2, ![20000, 256]⟩
abbrev S20000x1 : Shape := ⟨2, ![20000, 1]⟩
abbrev S4000x256 : Shape := ⟨2, ![4000, 256]⟩
abbrev S4000x1 : Shape := ⟨2, ![4000, 1]⟩
abbrev S4000x47 : Shape := ⟨2, ![4000, 47]⟩
abbrev S1x47 : Shape := ⟨2, ![1, 47]⟩

abbrev nBuf : Space → Nat
  | .hbm => 115
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S1800000, .i32⟩
  | .hbm, ⟨2, _⟩ => ⟨S1800000, .i32⟩
  | .hbm, ⟨3, _⟩ => ⟨S200000, .i32⟩
  | .hbm, ⟨4, _⟩ => ⟨S200000, .i32⟩
  | .hbm, ⟨5, _⟩ => ⟨S20000, .i32⟩
  | .hbm, ⟨6, _⟩ => ⟨S20000, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S_, .i32⟩
  | .hbm, ⟨17, _⟩ => ⟨S1800000, .i32⟩
  | .hbm, ⟨18, _⟩ => ⟨S1800000, .i1⟩
  | .hbm, ⟨19, _⟩ => ⟨S_, .i32⟩
  | .hbm, ⟨20, _⟩ => ⟨S1800000, .i32⟩
  | .hbm, ⟨21, _⟩ => ⟨S1800000, .i32⟩
  | .hbm, ⟨22, _⟩ => ⟨S1800000, .i32⟩
  | .hbm, ⟨23, _⟩ => ⟨S1800000x1, .i32⟩
  | .hbm, ⟨24, _⟩ => ⟨S1800000x128, .f32⟩
  | .hbm, ⟨25, _⟩ => ⟨S_, .f32⟩
  | .hbm, ⟨26, _⟩ => ⟨S120000x128, .f32⟩
  | .hbm, ⟨27, _⟩ => ⟨S1800000x1, .i32⟩
  | .hbm, ⟨28, _⟩ => ⟨S120000x128, .f32⟩
  | .hbm, ⟨29, _⟩ => ⟨S_, .f32⟩
  | .hbm, ⟨30, _⟩ => ⟨S1800000x1, .f32⟩
  | .hbm, ⟨31, _⟩ => ⟨S_, .f32⟩
  | .hbm, ⟨32, _⟩ => ⟨S120000x1, .f32⟩
  | .hbm, ⟨33, _⟩ => ⟨S1800000x1, .i32⟩
  | .hbm, ⟨34, _⟩ => ⟨S120000x1, .f32⟩
  | .hbm, ⟨35, _⟩ => ⟨S_, .f32⟩
  | .hbm, ⟨36, _⟩ => ⟨S120000x1, .f32⟩
  | .hbm, ⟨37, _⟩ => ⟨S120000x1, .f32⟩
  | .hbm, ⟨38, _⟩ => ⟨S120000x128, .f32⟩
  | .hbm, ⟨39, _⟩ => ⟨S120000x128, .f32⟩
  | .hbm, ⟨40, _⟩ => ⟨S120000x128, .f32⟩
  | .hbm, ⟨41, _⟩ => ⟨S120000x256, .f32⟩
  | .hbm, ⟨42, _⟩ => ⟨S120000x256, .f32⟩
  | .hbm, ⟨43, _⟩ => ⟨S120000x256, .f32⟩
  | .hbm, ⟨44, _⟩ => ⟨S1x256, .f32⟩
  | .hbm, ⟨45, _⟩ => ⟨S120000x256, .f32⟩
  | .hbm, ⟨46, _⟩ => ⟨S120000x256, .f32⟩
  | .hbm, ⟨47, _⟩ => ⟨S_, .f32⟩
  | .hbm, ⟨48, _⟩ => ⟨S120000x256, .f32⟩
  | .hbm, ⟨49, _⟩ => ⟨S120000x256, .f32⟩
  | .hbm, ⟨50, _⟩ => ⟨S_, .i32⟩
  | .hbm, ⟨51, _⟩ => ⟨S200000, .i32⟩
  | .hbm, ⟨52, _⟩ => ⟨S200000, .i1⟩
  | .hbm, ⟨53, _⟩ => ⟨S_, .i32⟩
  | .hbm, ⟨54, _⟩ => ⟨S200000, .i32⟩
  | .hbm, ⟨55, _⟩ => ⟨S200000, .i32⟩
  | .hbm, ⟨56, _⟩ => ⟨S200000, .i32⟩
  | .hbm, ⟨57, _⟩ => ⟨S200000x1, .i32⟩
  | .hbm, ⟨58, _⟩ => ⟨S200000x256, .f32⟩
  | .hbm, ⟨59, _⟩ => ⟨S_, .f32⟩
  | .hbm, ⟨60, _⟩ => ⟨S20000x256, .f32⟩
  | .hbm, ⟨61, _⟩ => ⟨S200000x1, .i32⟩
  | .hbm, ⟨62, _⟩ => ⟨S20000x256, .f32⟩
  | .hbm, ⟨63, _⟩ => ⟨S_, .f32⟩
  | .hbm, ⟨64, _⟩ => ⟨S200000x1, .f32⟩
  | .hbm, ⟨65, _⟩ => ⟨S_, .f32⟩
  | .hbm, ⟨66, _⟩ => ⟨S20000x1, .f32⟩
  | .hbm, ⟨67, _⟩ => ⟨S200000x1, .i32⟩
  | .hbm, ⟨68, _⟩ => ⟨S20000x1, .f32⟩
  | .hbm, ⟨69, _⟩ => ⟨S_, .f32⟩
  | .hbm, ⟨70, _⟩ => ⟨S20000x1, .f32⟩
  | .hbm, ⟨71, _⟩ => ⟨S20000x1, .f32⟩
  | .hbm, ⟨72, _⟩ => ⟨S20000x256, .f32⟩
  | .hbm, ⟨73, _⟩ => ⟨S20000x256, .f32⟩
  | .hbm, ⟨74, _⟩ => ⟨S20000x256, .f32⟩
  | .hbm, ⟨75, _⟩ => ⟨S20000x256, .f32⟩
  | .hbm, ⟨76, _⟩ => ⟨S20000x256, .f32⟩
  | .hbm, ⟨77, _⟩ => ⟨S20000x256, .f32⟩
  | .hbm, ⟨78, _⟩ => ⟨S1x256, .f32⟩
  | .hbm, ⟨79, _⟩ => ⟨S20000x256, .f32⟩
  | .hbm, ⟨80, _⟩ => ⟨S20000x256, .f32⟩
  | .hbm, ⟨81, _⟩ => ⟨S_, .f32⟩
  | .hbm, ⟨82, _⟩ => ⟨S20000x256, .f32⟩
  | .hbm, ⟨83, _⟩ => ⟨S20000x256, .f32⟩
  | .hbm, ⟨84, _⟩ => ⟨S_, .i32⟩
  | .hbm, ⟨85, _⟩ => ⟨S20000, .i32⟩
  | .hbm, ⟨86, _⟩ => ⟨S20000, .i1⟩
  | .hbm, ⟨87, _⟩ => ⟨S_, .i32⟩
  | .hbm, ⟨88, _⟩ => ⟨S20000, .i32⟩
  | .hbm, ⟨89, _⟩ => ⟨S20000, .i32⟩
  | .hbm, ⟨90, _⟩ => ⟨S20000, .i32⟩
  | .hbm, ⟨91, _⟩ => ⟨S20000x1, .i32⟩
  | .hbm, ⟨92, _⟩ => ⟨S20000x256, .f32⟩
  | .hbm, ⟨93, _⟩ => ⟨S_, .f32⟩
  | .hbm, ⟨94, _⟩ => ⟨S4000x256, .f32⟩
  | .hbm, ⟨95, _⟩ => ⟨S20000x1, .i32⟩
  | .hbm, ⟨96, _⟩ => ⟨S4000x256, .f32⟩
  | .hbm, ⟨97, _⟩ => ⟨S_, .f32⟩
  | .hbm, ⟨98, _⟩ => ⟨S20000x1, .f32⟩
  | .hbm, ⟨99, _⟩ => ⟨S_, .f32⟩
  | .hbm, ⟨100, _⟩ => ⟨S4000x1, .f32⟩
  | .hbm, ⟨101, _⟩ => ⟨S20000x1, .i32⟩
  | .hbm, ⟨102, _⟩ => ⟨S4000x1, .f32⟩
  | .hbm, ⟨103, _⟩ => ⟨S_, .f32⟩
  | .hbm, ⟨104, _⟩ => ⟨S4000x1, .f32⟩
  | .hbm, ⟨105, _⟩ => ⟨S4000x1, .f32⟩
  | .hbm, ⟨106, _⟩ => ⟨S4000x256, .f32⟩
  | .hbm, ⟨107, _⟩ => ⟨S4000x256, .f32⟩
  | .hbm, ⟨108, _⟩ => ⟨S4000x256, .f32⟩
  | .hbm, ⟨109, _⟩ => ⟨S4000x47, .f32⟩
  | .hbm, ⟨110, _⟩ => ⟨S4000x47, .f32⟩
  | .hbm, ⟨111, _⟩ => ⟨S4000x47, .f32⟩
  | .hbm, ⟨112, _⟩ => ⟨S1x47, .f32⟩
  | .hbm, ⟨113, _⟩ => ⟨S4000x47, .f32⟩
  | .hbm, ⟨114, _⟩ => ⟨S4000x47, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call0_cst : Ref sig .tc := ⟨.hbm, 47, rfl⟩
abbrev main_call0_v0 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_cst : Ref sig .tc := ⟨.hbm, 81, rfl⟩
abbrev main_call1_v0 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]

class Facts₀ : Prop where
  bcast_S_S1800000 : S_.BroadcastsInDim S1800000 (![] : Fin 0 → Fin S1800000.rank)
  bcast_S1800000_S1800000x1_0 : S1800000.BroadcastsInDim S1800000x1 (![0] : Fin 1 → Fin S1800000x1.rank)
  bcast_S_S120000x128 : S_.BroadcastsInDim S120000x128 (![] : Fin 0 → Fin S120000x128.rank)
  bcast_S_S1800000x1 : S_.BroadcastsInDim S1800000x1 (![] : Fin 0 → Fin S1800000x1.rank)
  bcast_S_S120000x1 : S_.BroadcastsInDim S120000x1 (![] : Fin 0 → Fin S120000x1.rank)
  bcast_S120000x1_S120000x128_0_1 : S120000x1.BroadcastsInDim S120000x128 (![0, 1] : Fin 2 → Fin S120000x128.rank)
  slices_S400000x128_S120000x128_0_0 : S400000x128.Slices ![0, 0] S120000x128
  bcast_S256_S1x256_1 : S256.BroadcastsInDim S1x256 (![1] : Fin 1 → Fin S1x256.rank)
  bcast_S1x256_S120000x256_0_1 : S1x256.BroadcastsInDim S120000x256 (![0, 1] : Fin 2 → Fin S120000x256.rank)
  bcast_S_S120000x256 : S_.BroadcastsInDim S120000x256 (![] : Fin 0 → Fin S120000x256.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S20000x256 : S_.BroadcastsInDim S20000x256 (![] : Fin 0 → Fin S20000x256.rank)
  bcast_S_S200000x1 : S_.BroadcastsInDim S200000x1 (![] : Fin 0 → Fin S200000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  slices_S120000x256_S20000x256_0_0 : S120000x256.Slices ![0, 0] S20000x256
  bcast_S1x256_S20000x256_0_1 : S1x256.BroadcastsInDim S20000x256 (![0, 1] : Fin 2 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S4000x256 : S_.BroadcastsInDim S4000x256 (![] : Fin 0 → Fin S4000x256.rank)
  bcast_S_S4000x1 : S_.BroadcastsInDim S4000x1 (![] : Fin 0 → Fin S4000x1.rank)
  bcast_S4000x1_S4000x256_0_1 : S4000x1.BroadcastsInDim S4000x256 (![0, 1] : Fin 2 → Fin S4000x256.rank)
  slices_S20000x256_S4000x256_0_0 : S20000x256.Slices ![0, 0] S4000x256
  bcast_S47_S1x47_1 : S47.BroadcastsInDim S1x47 (![1] : Fin 1 → Fin S1x47.rank)
  bcast_S1x47_S4000x47_0_1 : S1x47.BroadcastsInDim S4000x47 (![0, 1] : Fin 2 → Fin S4000x47.rank)
  gather_S400000x128_S1800000x1_S1800000x128_1_0_n_n_0_1_1128_wf : GatherDims.WF S400000x128 S1800000x1 S1800000x128 [1] [0] [] [0] [] 1 ![1, 128]
  scatter_S120000x128_S1800000x1_S1800000x128_1_0_0_1_wf : ScatterDims.WF S120000x128 S1800000x1 S1800000x128 [1] [0] [0] 1
  scatter_S120000x1_S1800000x1_S1800000x1_1_0_0_1_wf : ScatterDims.WF S120000x1 S1800000x1 S1800000x1 [1] [0] [0] 1
  dot_S120000x128_S128x256_S120000x256_1_0_0_1_n_n_wf : DotDims.WF S120000x128 S128x256 S120000x256 [1] [0] [0] [1] [] []
  gather_S120000x256_S200000x1_S200000x256_1_0_n_n_0_1_1256_wf : GatherDims.WF S120000x256 S200000x1 S200000x256 [1] [0] [] [0] [] 1 ![1, 256]
  scatter_S20000x256_S200000x1_S200000x256_1_0_0_1_wf : ScatterDims.WF S20000x256 S200000x1 S200000x256 [1] [0] [0] 1
  scatter_S20000x1_S200000x1_S200000x1_1_0_0_1_wf : ScatterDims.WF S20000x1 S200000x1 S200000x1 [1] [0] [0] 1
  dot_S20000x256_S256x256_S20000x256_1_0_0_1_n_n_wf : DotDims.WF S20000x256 S256x256 S20000x256 [1] [0] [0] [1] [] []
  gather_S20000x256_S20000x1_S20000x256_1_0_n_n_0_1_1256_wf : GatherDims.WF S20000x256 S20000x1 S20000x256 [1] [0] [] [0] [] 1 ![1, 256]
  scatter_S4000x256_S20000x1_S20000x256_1_0_0_1_wf : ScatterDims.WF S4000x256 S20000x1 S20000x256 [1] [0] [0] 1
  scatter_S4000x1_S20000x1_S20000x1_1_0_0_1_wf : ScatterDims.WF S4000x1 S20000x1 S20000x1 [1] [0] [0] 1
  dot_S4000x256_S256x47_S4000x47_1_0_0_1_n_n_wf : DotDims.WF S4000x256 S256x47 S4000x47 [1] [0] [0] [1] [] []

variable [Facts₀]

def gather_S400000x128_S1800000x1_S1800000x128_1_0_n_n_0_1_1128 : GatherDims S400000x128 S1800000x1 S1800000x128 where
  offsetDims := [1]
  collapsedSliceDims := [0]
  operandBatchingDims := []
  startIndicesBatchingDims := []
  startIndexMap := [0]
  indexVectorDim := 1
  sliceSizes := ![1, 128]
  wf := gather_S400000x128_S1800000x1_S1800000x128_1_0_n_n_0_1_1128_wf
def scatter_S120000x128_S1800000x1_S1800000x128_1_0_0_1 : ScatterDims S120000x128 S1800000x1 S1800000x128 where
  updateWindowDims := [1]
  insertedWindowDims := [0]
  scatterDimsToOperandDims := [0]
  indexVectorDim := 1
  wf := scatter_S120000x128_S1800000x1_S1800000x128_1_0_0_1_wf
def scatter_S120000x1_S1800000x1_S1800000x1_1_0_0_1 : ScatterDims S120000x1 S1800000x1 S1800000x1 where
  updateWindowDims := [1]
  insertedWindowDims := [0]
  scatterDimsToOperandDims := [0]
  indexVectorDim := 1
  wf := scatter_S120000x1_S1800000x1_S1800000x1_1_0_0_1_wf
def dot_S120000x128_S128x256_S120000x256_1_0_0_1_n_n : DotDims S120000x128 S128x256 S120000x256 where
  lhsContracting := [1]
  rhsContracting := [0]
  lhsNonContracting := [0]
  rhsNonContracting := [1]
  lhsBatch := []
  rhsBatch := []
  wf := dot_S120000x128_S128x256_S120000x256_1_0_0_1_n_n_wf
def gather_S120000x256_S200000x1_S200000x256_1_0_n_n_0_1_1256 : GatherDims S120000x256 S200000x1 S200000x256 where
  offsetDims := [1]
  collapsedSliceDims := [0]
  operandBatchingDims := []
  startIndicesBatchingDims := []
  startIndexMap := [0]
  indexVectorDim := 1
  sliceSizes := ![1, 256]
  wf := gather_S120000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000x1_S200000x1_S200000x1_1_0_0_1 : ScatterDims S20000x1 S200000x1 S200000x1 where
  updateWindowDims := [1]
  insertedWindowDims := [0]
  scatterDimsToOperandDims := [0]
  indexVectorDim := 1
  wf := scatter_S20000x1_S200000x1_S200000x1_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S20000x1_S20000x256_1_0_n_n_0_1_1256 : GatherDims S20000x256 S20000x1 S20000x256 where
  offsetDims := [1]
  collapsedSliceDims := [0]
  operandBatchingDims := []
  startIndicesBatchingDims := []
  startIndexMap := [0]
  indexVectorDim := 1
  sliceSizes := ![1, 256]
  wf := gather_S20000x256_S20000x1_S20000x256_1_0_n_n_0_1_1256_wf
def scatter_S4000x256_S20000x1_S20000x256_1_0_0_1 : ScatterDims S4000x256 S20000x1 S20000x256 where
  updateWindowDims := [1]
  insertedWindowDims := [0]
  scatterDimsToOperandDims := [0]
  indexVectorDim := 1
  wf := scatter_S4000x256_S20000x1_S20000x256_1_0_0_1_wf
def scatter_S4000x1_S20000x1_S20000x1_1_0_0_1 : ScatterDims S4000x1 S20000x1 S20000x1 where
  updateWindowDims := [1]
  insertedWindowDims := [0]
  scatterDimsToOperandDims := [0]
  indexVectorDim := 1
  wf := scatter_S4000x1_S20000x1_S20000x1_1_0_0_1_wf
def dot_S4000x256_S256x47_S4000x47_1_0_0_1_n_n : DotDims S4000x256 S256x47 S4000x47 where
  lhsContracting := [1]
  rhsContracting := [0]
  lhsNonContracting := [0]
  rhsNonContracting := [1]
  lhsBatch := []
  rhsBatch := []
  wf := dot_S4000x256_S256x47_S4000x47_1_0_0_1_n_n_wf

class Facts : Prop extends Facts₀ where

variable [Facts]
-- ==== Proof.Net.lean ====
/-
  The network both programs compute, as ONE function of the sixteen argument arrays: three layers, each
  `dense (x[:n]) (mean of x over incoming edges) Ws Wn b`, the first two followed by a maximum with zero.
  The edge part of a layer (`agg`) — gather the source rows, add them into the destination rows, divide by the
  row's edge count — is the same sequence of host operations in both programs and is carried as one function,
  never opened. The host program's result term is these layers composed (`ref_eq_net`).
-/
import proofs.«133832_j64287070486569_1_alg».proof.ReferenceIdeal
import proofs.«133832_j64287070486569_1_alg».proof.Proof.Gen.ReferenceIdeal.Run

noncomputable section

namespace Cert.Sage

open Cert.ReferenceIdeal Cert.ReferenceIdeal.Gen Idealize.ShloMosaic Idealize.ShloMosaic.TcCoe Idealize.SL.Sem

variable {F : FTy → Type} [FloatOps F]

/-! ## Layer 0: 400000 source rows of 128 features, 1800000 edges, 120000 destination rows, 256 output features -/

/-- Source indices as the gather takes them: a negative index counts from the end of the 400000 rows (one wrap-around,
    as jnp indexing does), then a unit axis is added. -/
def srcIdx0 (src : (⟨S1800000, .i32⟩ : BufTy).Contents (Elt F)) : (⟨S1800000x1, .i32⟩ : BufTy).Contents (Elt F) :=
  broadcastInDim S1800000x1 ![0] bcast_S1800000_S1800000x1_0
    (select (cmpi .slt src (broadcastInDim S1800000 ![] bcast_S_S1800000 (constantI S_ 32 0#32)))
      (addi src (broadcastInDim S1800000 ![] bcast_S_S1800000 (constantI S_ 32 400000#32))) src)

/-- The mean of the incoming messages of every destination row: the rows `x[src e]` summed into row `dst e` (a
    scatter-add into zeros), divided by the number of edges into that row, at least one. How the gather and the
    scatter-add read their index operands is never opened: both programs apply this same function. -/
def agg0 (x : (⟨S400000x128, .f32⟩ : BufTy).Contents (Elt F)) (src dst : (⟨S1800000, .i32⟩ : BufTy).Contents (Elt F)) : (⟨S120000x128, .f32⟩ : BufTy).Contents (Elt F) :=
  Host.divf
    (Host.scatterAdd scatter_S120000x128_S1800000x1_S1800000x128_1_0_0_1
      (broadcastInDim S120000x128 ![] bcast_S_S120000x128 (constant S_ .f32 0x00000000#32))
      (broadcastInDim S1800000x1 ![0] bcast_S1800000_S1800000x1_0 dst)
      (Host.gather gather_S400000x128_S1800000x1_S1800000x128_1_0_n_n_0_1_1128 x (srcIdx0 src)))
    (broadcastInDim S120000x128 ![0, 1] bcast_S120000x1_S120000x128_0_1
      (maximumf
        (Host.scatterAdd scatter_S120000x1_S1800000x1_S1800000x1_1_0_0_1
          (broadcastInDim S120000x1 ![] bcast_S_S120000x1 (constant S_ .f32 0x00000000#32))
          (broadcastInDim S1800000x1 ![0] bcast_S1800000_S1800000x1_0 dst)
          (broadcastInDim S1800000x1 ![] bcast_S_S1800000x1 (constant S_ .f32 0x3F800000#32)))
        (broadcastInDim S120000x1 ![] bcast_S_S120000x1 (constant S_ .f32 0x3F800000#32))))

/-- The first 120000 rows of the source features: the destination nodes' own features. -/
def own0 (x : (⟨S400000x128, .f32⟩ : BufTy).Contents (Elt F)) : (⟨S120000x128, .f32⟩ : BufTy).Contents (Elt F) :=
  extractStridedSlice S120000x128 ![0, 0] x slices_S400000x128_S120000x128_0_0

/-- The dense step on whole arrays: `h · Ws + nm · Wn + b`, then the maximum with zero, the bias a [1, 256] row added to every row. -/
def dense0 (h nm : (⟨S120000x128, .f32⟩ : BufTy).Contents (Elt F)) (Ws Wn : (⟨S128x256, .f32⟩ : BufTy).Contents (Elt F)) (b2 : (⟨S1x256, .f32⟩ : BufTy).Contents (Elt F)) : (⟨S120000x256, .f32⟩ : BufTy).Contents (Elt F) :=
  maximumf (addf (addf (Host.dotGeneral dot_S120000x128_S128x256_S120000x256_1_0_0_1_n_n none h Ws) (Host.dotGeneral dot_S120000x128_S128x256_S120000x256_1_0_0_1_n_n none nm Wn)) (broadcastInDim S120000x256 ![0, 1] bcast_S1x256_S120000x256_0_1 b2)) (broadcastInDim S120000x256 ![] bcast_S_S120000x256 (constant S_ .f32 0x00000000#32))

/-- The bias vector as a [1, 256] row. -/
def biasRow0 (b : (⟨S256, .f32⟩ : BufTy).Contents (Elt F)) : (⟨S1x256, .f32⟩ : BufTy).Contents (Elt F) :=
  broadcastInDim S1x256 ![1] bcast_S256_S1x256_1 b

/-- Layer 0 of the network: the dense step of the destination rows' own features and of the mean of their neighbours'. -/
def layer0 (x : (⟨S400000x128, .f32⟩ : BufTy).Contents (Elt F)) (src dst : (⟨S1800000, .i32⟩ : BufTy).Contents (Elt F)) (Ws Wn : (⟨S128x256, .f32⟩ : BufTy).Contents (Elt F)) (b : (⟨S256, .f32⟩ : BufTy).Contents (Elt F)) : (⟨S120000x256, .f32⟩ : BufTy).Contents (Elt F) :=
  dense0 (own0 x) (agg0 x src dst) Ws Wn (biasRow0 b)

/-! ## Layer 1: 120000 source rows of 256 features, 200000 edges, 20000 destination rows, 256 output features -/

/-- Source indices as the gather takes them: a negative index counts from the end of the 120000 rows (one wrap-around,
    as jnp indexing does), then a unit axis is added. -/
def srcIdx1 (src : (⟨S200000, .i32⟩ : BufTy).Contents (Elt F)) : (⟨S200000x1, .i32⟩ : BufTy).Contents (Elt F) :=
  broadcastInDim S200000x1 ![0] bcast_S200000_S200000x1_0
    (select (cmpi .slt src (broadcastInDim S200000 ![] bcast_S_S200000 (constantI S_ 32 0#32)))
      (addi src (broadcastInDim S200000 ![] bcast_S_S200000 (constantI S_ 32 120000#32))) src)

/-- The mean of the incoming messages of every destination row: the rows `x[src e]` summed into row `dst e` (a
    scatter-add into zeros), divided by the number of edges into that row, at least one. How the gather and the
    scatter-add read their index operands is never opened: both programs apply this same function. -/
def agg1 (x : (⟨S120000x256, .f32⟩ : BufTy).Contents (Elt F)) (src dst : (⟨S200000, .i32⟩ : BufTy).Contents (Elt F)) : (⟨S20000x256, .f32⟩ : BufTy).Contents (Elt F) :=
  Host.divf
    (Host.scatterAdd scatter_S20000x256_S200000x1_S200000x256_1_0_0_1
      (broadcastInDim S20000x256 ![] bcast_S_S20000x256 (constant S_ .f32 0x00000000#32))
      (broadcastInDim S200000x1 ![0] bcast_S200000_S200000x1_0 dst)
      (Host.gather gather_S120000x256_S200000x1_S200000x256_1_0_n_n_0_1_1256 x (srcIdx1 src)))
    (broadcastInDim S20000x256 ![0, 1] bcast_S20000x1_S20000x256_0_1
      (maximumf
        (Host.scatterAdd scatter_S20000x1_S200000x1_S200000x1_1_0_0_1
          (broadcastInDim S20000x1 ![] bcast_S_S20000x1 (constant S_ .f32 0x00000000#32))
          (broadcastInDim S200000x1 ![0] bcast_S200000_S200000x1_0 dst)
          (broadcastInDim S200000x1 ![] bcast_S_S200000x1 (constant S_ .f32 0x3F800000#32)))
        (broadcastInDim S20000x1 ![] bcast_S_S20000x1 (constant S_ .f32 0x3F800000#32))))

/-- The first 20000 rows of the source features: the destination nodes' own features. -/
def own1 (x : (⟨S120000x256, .f32⟩ : BufTy).Contents (Elt F)) : (⟨S20000x256, .f32⟩ : BufTy).Contents (Elt F) :=
  extractStridedSlice S20000x256 ![0, 0] x slices_S120000x256_S20000x256_0_0

/-- The dense step on whole arrays: `h · Ws + nm · Wn + b`, then the maximum with zero, the bias a [1, 256] row added to every row. -/
def dense1 (h nm : (⟨S20000x256, .f32⟩ : BufTy).Contents (Elt F)) (Ws Wn : (⟨S256x256, .f32⟩ : BufTy).Contents (Elt F)) (b2 : (⟨S1x256, .f32⟩ : BufTy).Contents (Elt F)) : (⟨S20000x256, .f32⟩ : BufTy).Contents (Elt F) :=
  maximumf (addf (addf (Host.dotGeneral dot_S20000x256_S256x256_S20000x256_1_0_0_1_n_n none h Ws) (Host.dotGeneral dot_S20000x256_S256x256_S20000x256_1_0_0_1_n_n none nm Wn)) (broadcastInDim S20000x256 ![0, 1] bcast_S1x256_S20000x256_0_1 b2)) (broadcastInDim S20000x256 ![] bcast_S_S20000x256 (constant S_ .f32 0x00000000#32))

/-- The bias vector as a [1, 256] row. -/
def biasRow1 (b : (⟨S256, .f32⟩ : BufTy).Contents (Elt F)) : (⟨S1x256, .f32⟩ : BufTy).Contents (Elt F) :=
  broadcastInDim S1x256 ![1] bcast_S256_S1x256_1 b

/-- Layer 1 of the network: the dense step of the destination rows' own features and of the mean of their neighbours'. -/
def layer1 (x : (⟨S120000x256, .f32⟩ : BufTy).Contents (Elt F)) (src dst : (⟨S200000, .i32⟩ : BufTy).Contents (Elt F)) (Ws Wn : (⟨S256x256, .f32⟩ : BufTy).Contents (Elt F)) (b : (⟨S256, .f32⟩ : BufTy).Contents (Elt F)) : (⟨S20000x256, .f32⟩ : BufTy).Contents (Elt F) :=
  dense1 (own1 x) (agg1 x src dst) Ws Wn (biasRow1 b)

/-! ## Layer 2: 20000 source rows of 256 features, 20000 edges, 4000 destination rows, 47 output features -/

/-- Source indices as the gather takes them: a negative index counts from the end of the 20000 rows (one wrap-around,
    as jnp indexing does), then a unit axis is added. -/
def srcIdx2 (src : (⟨S20000, .i32⟩ : BufTy).Contents (Elt F)) : (⟨S20000x1, .i32⟩ : BufTy).Contents (Elt F) :=
  broadcastInDim S20000x1 ![0] bcast_S20000_S20000x1_0
    (select (cmpi .slt src (broadcastInDim S20000 ![] bcast_S_S20000 (constantI S_ 32 0#32)))
      (addi src (broadcastInDim S20000 ![] bcast_S_S20000 (constantI S_ 32 20000#32))) src)

/-- The mean of the incoming messages of every destination row: the rows `x[src e]` summed into row `dst e` (a
    scatter-add into zeros), divided by the number of edges into that row, at least one. How the gather and the
    scatter-add read their index operands is never opened: both programs apply this same function. -/
def agg2 (x : (⟨S20000x256, .f32⟩ : BufTy).Contents (Elt F)) (src dst : (⟨S20000, .i32⟩ : BufTy).Contents (Elt F)) : (⟨S4000x256, .f32⟩ : BufTy).Contents (Elt F) :=
  Host.divf
    (Host.scatterAdd scatter_S4000x256_S20000x1_S20000x256_1_0_0_1
      (broadcastInDim S4000x256 ![] bcast_S_S4000x256 (constant S_ .f32 0x00000000#32))
      (broadcastInDim S20000x1 ![0] bcast_S20000_S20000x1_0 dst)
      (Host.gather gather_S20000x256_S20000x1_S20000x256_1_0_n_n_0_1_1256 x (srcIdx2 src)))
    (broadcastInDim S4000x256 ![0, 1] bcast_S4000x1_S4000x256_0_1
      (maximumf
        (Host.scatterAdd scatter_S4000x1_S20000x1_S20000x1_1_0_0_1
          (broadcastInDim S4000x1 ![] bcast_S_S4000x1 (constant S_ .f32 0x00000000#32))
          (broadcastInDim S20000x1 ![0] bcast_S20000_S20000x1_0 dst)
          (broadcastInDim S20000x1 ![] bcast_S_S20000x1 (constant S_ .f32 0x3F800000#32)))
        (broadcastInDim S4000x1 ![] bcast_S_S4000x1 (constant S_ .f32 0x3F800000#32))))

/-- The first 4000 rows of the source features: the destination nodes' own features. -/
def own2 (x : (⟨S20000x256, .f32⟩ : BufTy).Contents (Elt F)) : (⟨S4000x256, .f32⟩ : BufTy).Contents (Elt F) :=
  extractStridedSlice S4000x256 ![0, 0] x slices_S20000x256_S4000x256_0_0

/-- The dense step on whole arrays: `h · Ws + nm · Wn + b`, the bias a [1, 47] row added to every row. -/
def dense2 (h nm : (⟨S4000x256, .f32⟩ : BufTy).Contents (Elt F)) (Ws Wn : (⟨S256x47, .f32⟩ : BufTy).Contents (Elt F)) (b2 : (⟨S1x47, .f32⟩ : BufTy).Contents (Elt F)) : (⟨S4000x47, .f32⟩ : BufTy).Contents (Elt F) :=
  addf (addf (Host.dotGeneral dot_S4000x256_S256x47_S4000x47_1_0_0_1_n_n none h Ws) (Host.dotGeneral dot_S4000x256_S256x47_S4000x47_1_0_0_1_n_n none nm Wn)) (broadcastInDim S4000x47 ![0, 1] bcast_S1x47_S4000x47_0_1 b2)

/-- The bias vector as a [1, 47] row. -/
def biasRow2 (b : (⟨S47, .f32⟩ : BufTy).Contents (Elt F)) : (⟨S1x47, .f32⟩ : BufTy).Contents (Elt F) :=
  broadcastInDim S1x47 ![1] bcast_S47_S1x47_1 b

/-- Layer 2 of the network: the dense step of the destination rows' own features and of the mean of their neighbours'. -/
def layer2 (x : (⟨S20000x256, .f32⟩ : BufTy).Contents (Elt F)) (src dst : (⟨S20000, .i32⟩ : BufTy).Contents (Elt F)) (Ws Wn : (⟨S256x47, .f32⟩ : BufTy).Contents (Elt F)) (b : (⟨S47, .f32⟩ : BufTy).Contents (Elt F)) : (⟨S4000x47, .f32⟩ : BufTy).Contents (Elt F) :=
  dense2 (own2 x) (agg2 x src dst) Ws Wn (biasRow2 b)

/-- The whole network. -/
def net (x : (⟨S400000x128, .f32⟩ : BufTy).Contents (Elt F))
    (s0 d0 : (⟨S1800000, .i32⟩ : BufTy).Contents (Elt F)) (s1 d1 : (⟨S200000, .i32⟩ : BufTy).Contents (Elt F))
    (s2 d2 : (⟨S20000, .i32⟩ : BufTy).Contents (Elt F))
    (Ws0 Wn0 : (⟨S128x256, .f32⟩ : BufTy).Contents (Elt F)) (b0 : (⟨S256, .f32⟩ : BufTy).Contents (Elt F))
    (Ws1 Wn1 : (⟨S256x256, .f32⟩ : BufTy).Contents (Elt F)) (b1 : (⟨S256, .f32⟩ : BufTy).Contents (Elt F))
    (Ws2 Wn2 : (⟨S256x47, .f32⟩ : BufTy).Contents (Elt F)) (b2 : (⟨S47, .f32⟩ : BufTy).Contents (Elt F)) :
    (⟨S4000x47, .f32⟩ : BufTy).Contents (Elt F) :=
  layer2 (layer1 (layer0 x s0 d0 Ws0 Wn0 b0) s1 d1 Ws1 Wn1 b1) s2 d2 Ws2 Wn2 b2

/-- The host program's result, as its run states it, is the network of its arguments: the same operations, grouped. -/
theorem ref_eq_net (m : (ℓ : Loc nD τ sig) → Buf (Elt F) ℓ) (c : Dev nD) :
    Cert.ReferenceIdeal.Value.res_main_v76 m c =
      net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) := by
  unfold Cert.ReferenceIdeal.Value.res_main_v76 net layer2 layer1 layer0 dense2 dense1 dense0 agg2 agg1 agg0 own2 own1 own0
    biasRow2 biasRow1 biasRow0 srcIdx2 srcIdx1 srcIdx0
  rfl

end Cert.Sage

end
-- ==== Proof.KernelRun.lean ====
/-
  The idealized kernel program's run with its RESULT named. @main is six segments — a stretch of host operations, a
  pipelined kernel region, twice more — and the buffer contents at the segment boundaries are a fold from the launch
  memory (`Gen.W0` … `Gen.W6`). Every weakly fair execution terminates with every unscoped buffer at the last
  boundary's contents; read at the result buffer and at the sixteen argument buffers this is `run_result`: the result
  array ends at `W6` of its buffer, the arguments as launched.
-/
import proofs.«133832_j64287070486569_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the argument buffers as launched. -/
theorem run_result : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Hand

end
-- ==== Proof.LibDotSum.lean ====
/-
  Two small facts about arrays read at an index, used for every layer.
  Two matrix products read at an index are sums over their contraction indices; when each contracts ONE axis of the
  same extent `n`, both are sums over `Fin n`, and they are equal as soon as their terms are, `k` by `k`.
  A bias vector reshaped to a one-row matrix is the vector broadcast along a new leading axis.
-/
import Idealize.ShloMosaic.Lib.ValueIdx
import Idealize.ShloMosaic.Lib.Pipeline.Value
import Idealize.ShloMosaic.PureOps.Ideal.Laws

noncomputable section

namespace Cert.Sage

open Idealize.ShloMosaic

/-- Sums over the contraction indices of two dots with one contracted axis of extent `n` each: equal when the terms at
    the `k`-th contraction index of each are equal, for every `k` below `n`. -/
theorem sum_contr_congr {sl sr so sl' sr' so' : Shape} (d : DotDims sl sr so) (d' : DotDims sl' sr' so') (n : Nat)
    (hr : d.contr.rank = 1) (hs : d.contr.size ⟨0, by omega⟩ = n) (hr' : d'.contr.rank = 1) (hs' : d'.contr.size ⟨0, by omega⟩ = n)
    (f : d.contr.Idx → EReal) (g : d'.contr.Idx → EReal)
    (hfg : ∀ k : Fin n, f ((ValueIdx.contrEquiv1 d n hr hs).symm k) = g ((ValueIdx.contrEquiv1 d' n hr' hs').symm k)) :
    ∑ q : d.contr.Idx, f q = ∑ q : d'.contr.Idx, g q :=
  ((Equiv.sum_comp (ValueIdx.contrEquiv1 d n hr hs).symm f).symm.trans (Finset.sum_congr rfl fun k _ => hfg k)).trans
    (Equiv.sum_comp (ValueIdx.contrEquiv1 d' n hr' hs').symm g)

/-- A vector of `n` entries reshaped to a [1, n] row is the same row as the vector broadcast along a new leading unit
    axis: entry (0, q) of either is entry q of the vector. -/
theorem reshape_row_eq_bcast {α : Type} (n : Nat) (hn : n ≠ 1) (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  have hj0 : (j 0).val = 0 := by have := (j 0).isLt; simp at this; omega
  let k : (⟨1, ![n]⟩ : Shape).Idx := ValueIdx.ix1 ⟨(j 1).val, (j 1).isLt⟩
  refine (shapeCast_apply b h j k ?_).trans (broadcastInDim_apply _ h' b j k ?_).symm
  · rw [Shape.rowMajor_val_one, Shape.rowMajor_val_two]
    show (j 1).val = (j 0).val * n + (j 1).val
    rw [hj0]; omega
  · intro a
    match a with
    | ⟨0, _⟩ => show (j 1).val = if n = 1 then 0 else (j 1).val; rw [if_neg hn]

end Cert.Sage

end
-- ==== Proof.Dense2.lean ====
/-
  Region 2 of the idealized kernel program, as a value: for ANY contents `V` of the TensorCore's buffers at the
  region's entry, the region's output array ends at the dense step of its five input arrays as `V` has them,
  `h · Ws + nm · Wn + b` (`Cert.Sage.dense2`, the host's operations on whole arrays).
  Grid point `t` holds rows `4000·t … 4000·t + 3999` of `h` and `nm` and all of `Ws`, `Wn`, `b`; element (p, q) of
  what it stores is the sum over `k` of `h[4000·t + p, k] · Ws[k, q]`, the same for `nm` and `Wn`, plus `b[q]` — which is
  element (4000·t + p, q) of the whole-array dense step, whose matrix products are the same sums over `k`. The 1 blocks of 4000 rows
  cover the 4000 rows.
-/
import proofs.«133832_j64287070486569_1_alg».proof.Proof.Gen.KernelIdeal.Frame
import proofs.«133832_j64287070486569_1_alg».proof.Proof.Gen.ReferenceIdeal.Read
import proofs.«133832_j64287070486569_1_alg».proof.Proof.Net
import proofs.«133832_j64287070486569_1_alg».proof.Proof.LibDotSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The block matrix product's operand indices, coordinate by coordinate -/

theorem lhsK2_0 (j : S4000x47.Idx) (q : dot_S4000x256_S256x47_S4000x47_1_0_0_1_n_n.contr.Idx) : (dot_S4000x256_S256x47_S4000x47_1_0_0_1_n_n.lhsIdx j q 0).val = (j 0).val := by
  unfold DotDims.lhsIdx
  rw [dif_neg (show ¬(0 : Fin S4000x256.rank) ∈ dot_S4000x256_S256x47_S4000x47_1_0_0_1_n_n.lhsBatch by decide), dif_pos (show (0 : Fin S4000x256.rank) ∈ dot_S4000x256_S256x47_S4000x47_1_0_0_1_n_n.lhsNonContracting by decide)]
  rfl
theorem lhsK2_1 (j : S4000x47.Idx) (q : dot_S4000x256_S256x47_S4000x47_1_0_0_1_n_n.contr.Idx) : (dot_S4000x256_S256x47_S4000x47_1_0_0_1_n_n.lhsIdx j q 1).val = (q ⟨0, by decide⟩).val :=
  dot_S4000x256_S256x47_S4000x47_1_0_0_1_n_n.lhsIdx_val_of_single rfl j q
theorem rhsK2_0 (j : S4000x47.Idx) (q : dot_S4000x256_S256x47_S4000x47_1_0_0_1_n_n.contr.Idx) : (dot_S4000x256_S256x47_S4000x47_1_0_0_1_n_n.rhsIdx j q 0).val = (q ⟨0, by decide⟩).val :=
  dot_S4000x256_S256x47_S4000x47_1_0_0_1_n_n.rhsIdx_val_of_single rfl j q
theorem rhsK2_1 (j : S4000x47.Idx) (q : dot_S4000x256_S256x47_S4000x47_1_0_0_1_n_n.contr.Idx) : (dot_S4000x256_S256x47_S4000x47_1_0_0_1_n_n.rhsIdx j q 1).val = (j 1).val := by
  unfold DotDims.rhsIdx
  rw [dif_neg (show ¬(1 : Fin S256x47.rank) ∈ dot_S4000x256_S256x47_S4000x47_1_0_0_1_n_n.rhsBatch by decide), dif_pos (show (1 : Fin S256x47.rank) ∈ dot_S4000x256_S256x47_S4000x47_1_0_0_1_n_n.rhsNonContracting by decide)]
  rfl

/-- A block's matrix product at (p, q) is the whole arrays' at (i₀, q) when the block's row p is the array's row i₀ and
    the right operands agree: both are the sum over `k` of row times column. -/
theorem dotK2_eq (xl : FVec Ideal S4000x256 .bf16) (xr : FVec Ideal S256x47 .bf16)
    (h : FVec Ideal Cert.ReferenceIdeal.S4000x256 .f32) (Ws : FVec Ideal Cert.ReferenceIdeal.S256x47 .f32) (j : S4000x47.Idx) (i : Cert.ReferenceIdeal.S4000x47.Idx)
    (hj1 : (i 1).val = (j 1).val)
    (hl : ∀ (a : S4000x256.Idx) (a' : Cert.ReferenceIdeal.S4000x256.Idx), (a 0).val = (j 0).val → (a' 0).val = (i 0).val → (a' 1).val = (a 1).val → xl a = h a')
    (hr : ∀ (a : S256x47.Idx) (a' : Cert.ReferenceIdeal.S256x47.Idx), (a' 0).val = (a 0).val → (a' 1).val = (a 1).val → xr a = Ws a') :
    matmul dot_S4000x256_S256x47_S4000x47_1_0_0_1_n_n none xl xr (constant S4000x47 .f32 0x00000000#32) j = Host.dotGeneral Cert.ReferenceIdeal.dot_S4000x256_S256x47_S4000x47_1_0_0_1_n_n none h Ws i := by
  refine (Ideal.matmul_constant_zero_apply dot_S4000x256_S256x47_S4000x47_1_0_0_1_n_n none xl xr j).trans ?_
  refine Eq.trans ?_ (Ideal.dotGeneral_apply Cert.ReferenceIdeal.dot_S4000x256_S256x47_S4000x47_1_0_0_1_n_n none _ h Ws i).symm
  refine Cert.Sage.sum_contr_congr dot_S4000x256_S256x47_S4000x47_1_0_0_1_n_n Cert.ReferenceIdeal.dot_S4000x256_S256x47_S4000x47_1_0_0_1_n_n 256 rfl rfl rfl rfl _ _ fun k => ?_
  have hK := ValueIdx.contrEquiv1_symm_val dot_S4000x256_S256x47_S4000x47_1_0_0_1_n_n 256 rfl rfl k
  have hR := ValueIdx.contrEquiv1_symm_val Cert.ReferenceIdeal.dot_S4000x256_S256x47_S4000x47_1_0_0_1_n_n 256 rfl rfl k
  refine congrArg₂ (· * ·) (hl _ _ (lhsK2_0 _ _) (Cert.ReferenceIdeal.Read.lhs_main_v71_0 _ _) ?_) (hr _ _ ?_ ?_)
  · exact ((Cert.ReferenceIdeal.Read.lhs_main_v71_1 _ _).trans hR).trans ((lhsK2_1 _ _).trans hK).symm
  · exact ((Cert.ReferenceIdeal.Read.rhs_main_v71_0 _ _).trans hR).trans ((rhsK2_0 _ _).trans hK).symm
  · exact ((Cert.ReferenceIdeal.Read.rhs_main_v71_1 _ _).trans hj1).trans (rhsK2_1 _ _).symm

/-! ## What a grid point stores, at an index -/

/-- The body's stored value at (p, q) is the whole-array dense step at the array index `i` whose row the block's row p is
    and whose column is q, when the loaded blocks are the arrays' rows and the whole weight and bias arrays. -/
theorem pay2_at (x0 x1 : Vec Ideal S4000x256 .f32) (x2 x3 : Vec Ideal S256x47 .f32) (x4 : Vec Ideal S1x47 .f32)
    (h nm : FVec Ideal Cert.ReferenceIdeal.S4000x256 .f32) (Ws Wn : FVec Ideal Cert.ReferenceIdeal.S256x47 .f32) (b2 : FVec Ideal Cert.ReferenceIdeal.S1x47 .f32)
    (j : S4000x47.Idx) (i : Cert.ReferenceIdeal.S4000x47.Idx) (hj1 : (i 1).val = (j 1).val)
    (h0 : ∀ (a : S4000x256.Idx) (a' : Cert.ReferenceIdeal.S4000x256.Idx), (a 0).val = (j 0).val → (a' 0).val = (i 0).val → (a' 1).val = (a 1).val → x0 a = h a')
    (h1 : ∀ (a : S4000x256.Idx) (a' : Cert.ReferenceIdeal.S4000x256.Idx), (a 0).val = (j 0).val → (a' 0).val = (i 0).val → (a' 1).val = (a 1).val → x1 a = nm a')
    (h2 : ∀ (a : S256x47.Idx) (a' : Cert.ReferenceIdeal.S256x47.Idx), (a' 0).val = (a 0).val → (a' 1).val = (a 1).val → x2 a = Ws a')
    (h3 : ∀ (a : S256x47.Idx) (a' : Cert.ReferenceIdeal.S256x47.Idx), (a' 0).val = (a 0).val → (a' 1).val = (a 1).val → x3 a = Wn a')
    (h4 : ∀ (a : S1x47.Idx) (a' : Cert.ReferenceIdeal.S1x47.Idx), (a' 1).val = (a 1).val → x4 a = b2 a') :
    k2_pay1 x0 x1 x2 x3 x4 j = Cert.Sage.dense2 (F := Ideal) h nm Ws Wn b2 i := by
  unfold k2_pay1 Cert.Sage.dense2
  refine congrArg₂ FloatOps.addf (congrArg₂ FloatOps.addf ?_ ?_) ?_
  · exact dotK2_eq _ _ h Ws j i hj1
      (fun a a' e0 e1 e2 => (congrFun (shapeCast_self x0 shapeCasts_S4000x256_S4000x256) a).trans (h0 a a' e0 e1 e2)) h2
  · exact dotK2_eq _ _ nm Wn j i hj1
      (fun a a' e0 e1 e2 => (congrFun (shapeCast_self x1 shapeCasts_S4000x256_S4000x256) a).trans (h1 a a' e0 e1 e2)) h3
  · -- the bias row, broadcast down the rows on both sides
    have hq : (j 1).val < 47 := (j 1).isLt
    let k : S1x47.Idx := fun a => match a with | ⟨0, _⟩ => ⟨0, Nat.zero_lt_one⟩ | ⟨1, _⟩ => ⟨(j 1).val, hq⟩
    let k' : Cert.ReferenceIdeal.S1x47.Idx := fun a => match a with | ⟨0, _⟩ => ⟨0, Nat.zero_lt_one⟩ | ⟨1, _⟩ => ⟨(j 1).val, hq⟩
    refine (broadcastTo_apply _ broadcasts_S1x47_S4000x47 j k (fun a => match a with | ⟨0, _⟩ => rfl | ⟨1, _⟩ => rfl)).trans ?_
    refine Eq.trans ?_ (broadcastInDim_apply _ Cert.ReferenceIdeal.Gen.bcast_S1x47_S4000x47_0_1 b2 i k' (fun a => match a with | ⟨0, _⟩ => rfl | ⟨1, _⟩ => hj1.symm)).symm
    exact (congrFun (shapeCast_self x4 shapeCasts_S1x47_S1x47) k).trans (h4 k k' rfl)

/-! ## The grid: which rows a point holds -/

theorem hz2 : (![0, 0] : Fin 2 → Nat) = fun _ => 0 := funext fun a => by fin_cases a <;> rfl

/-- The printed index maps, decided over the grid's 1 points: the two row-blocked inputs move with the output, block
    `t` at point `t`; the weights and the bias are one block. -/
theorem idx_facts2 : ∀ t : Fin cfg2.N, win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section
variable (V : (c : Dev nD) → (b : Ref sig .tc) → Buf (Elt Ideal) ((c : Thread nD τ).loc b))

set_option maxHeartbeats 4000000 in
/-- WHAT POINT `t` WRITES BACK is block `t` of the dense step of the five input arrays as the region finds them. -/
theorem flushed2_eq (c : Dev nD) (t : Fin cfg2.N) :
    (dat2 (F := Ideal) V c).flushed 5 t
      = ((cfg2.win 5).blk t).view.read (Elt Ideal) (Cert.Sage.dense2 (F := Ideal) (V c main_v60) (V c main_v59) (V c main_arg13) (V c main_arg14) (V c main_v61)) := by
  show (cfg2.win 5).cut (grid2.coords t) ((dat2 (F := Ideal) V c).after 5 t) = _
  rw [after2_5]
  unfold out2_5
  rw [View.canon_unit_zero hz2]
  simp only [View.ld_unit_zero (S := S4000x256) hz2, View.ld_unit_zero (S := S256x47) hz2, View.ld_unit_zero (S := S1x47) hz2]
  obtain ⟨e00, e01, e10, e11, e20, e21, e30, e31, e40, e41, e50, e51⟩ := idx_facts2 t
  funext j
  have hi0 : ((((cfg2.win 5).blk t).view.emb j) 0).val = win2_5.index t (0 : Fin 2) * 4000 + 1 * (j 0).val := rfl
  have hi1 : ((((cfg2.win 5).blk t).view.emb j) 1).val = win2_5.index t (1 : Fin 2) * 47 + 1 * (j 1).val := rfl
  refine pay2_at _ _ _ _ _ _ _ _ _ _ j (((cfg2.win 5).blk t).view.emb j) (by rw [hi1, e51]; omega) ?_ ?_ ?_ ?_ ?_
  · intro a a' ea0 ea0' ea1
    unfold iblk2
    rw [View.read_apply]
    refine congrArg (V c main_v60) (funext fun d => Fin.ext ?_)
    match d with
    | ⟨0, _⟩ => show win2_0.index t (0 : Fin 2) * 4000 + 1 * (a 0).val = (a' 0).val; rw [ea0', hi0, e00, ea0]
    | ⟨1, _⟩ => show win2_0.index t (1 : Fin 2) * 256 + 1 * (a 1).val = (a' 1).val; rw [ea1, e01]; omega
  · intro a a' ea0 ea0' ea1
    unfold iblk2
    rw [View.read_apply]
    refine congrArg (V c main_v59) (funext fun d => Fin.ext ?_)
    match d with
    | ⟨0, _⟩ => show win2_1.index t (0 : Fin 2) * 4000 + 1 * (a 0).val = (a' 0).val; rw [ea0', hi0, e10, ea0]
    | ⟨1, _⟩ => show win2_1.index t (1 : Fin 2) * 256 + 1 * (a 1).val = (a' 1).val; rw [ea1, e11]; omega
  · intro a a' ea0 ea1
    unfold iblk2
    rw [View.read_apply]
    refine congrArg (V c main_arg13) (funext fun d => Fin.ext ?_)
    match d with
    | ⟨0, _⟩ => show win2_2.index t (0 : Fin 2) * 256 + 1 * (a 0).val = (a' 0).val; rw [ea0, e20]; omega
    | ⟨1, _⟩ => show win2_2.index t (1 : Fin 2) * 47 + 1 * (a 1).val = (a' 1).val; rw [ea1, e21]; omega
  · intro a a' ea0 ea1
    unfold iblk2
    rw [View.read_apply]
    refine congrArg (V c main_arg14) (funext fun d => Fin.ext ?_)
    match d with
    | ⟨0, _⟩ => show win2_3.index t (0 : Fin 2) * 256 + 1 * (a 0).val = (a' 0).val; rw [ea0, e30]; omega
    | ⟨1, _⟩ => show win2_3.index t (1 : Fin 2) * 47 + 1 * (a 1).val = (a' 1).val; rw [ea1, e31]; omega
  · intro a a' ea1
    unfold iblk2
    rw [View.read_apply]
    refine congrArg (V c main_v61) (funext fun d => Fin.ext ?_)
    match d with
    | ⟨0, _⟩ =>
      show win2_4.index t (0 : Fin 2) * 1 + 1 * (a 0).val = (a' 0).val
      have ha : (a 0).val < 1 := (a 0).isLt
      have ha' : (a' 0).val < 1 := (a' 0).isLt
      rw [e40]; omega
    | ⟨1, _⟩ => show win2_4.index t (1 : Fin 2) * 47 + 1 * (a 1).val = (a' 1).val; rw [ea1, e41]; omega

/-- An index of the output array is in point `t`'s block iff each coordinate is in the block's range on its axis. -/
theorem mem_blk2 (t : Fin cfg2.N) (i : S4000x47.Idx) :
    i ∈ ((cfg2.win 5).blk t).view.set ↔ ∀ a : Fin 2, win2_5.index t a * S4000x47.size a ≤ (i a).val ∧ (i a).val < win2_5.index t a * S4000x47.size a + S4000x47.size a := by
  show i ∈ ((View.whole main_v62).slice (win2_5.rect t)).set ↔ _
  rw [View.set_slice_whole, Rect.mem_set_unit]
  exact Iff.rfl

/-- THE ARRAY the region leaves: the dense step of its five input arrays — row `r` is written by point `r / 4000`. -/
theorem final2 (c : Dev nD) :
    (dat2 (F := Ideal) V c).arrAt 5 cfg2.N = Cert.Sage.dense2 (F := Ideal) (V c main_v60) (V c main_v59) (V c main_arg13) (V c main_arg14) (V c main_v61) :=
  (dat2 (F := Ideal) V c).arrAt_eq_of_cover 5 _ (fun t _ => flushed2_eq V c t) fun i => by
    have hr : (i 0).val < 4000 := (i 0).isLt
    have hq : (i 1).val < 47 := (i 1).isLt
    let t : Fin cfg2.N := ⟨(i 0).val / 4000, by show (i 0).val / 4000 < 1; omega⟩
    obtain ⟨-, -, -, -, -, -, -, -, -, -, e50, e51⟩ := idx_facts2 t
    refine ⟨t, flush2_5 t, ?_⟩
    rw [mem_blk2]
    intro a
    match a with
    | ⟨0, _⟩ =>
      show win2_5.index t (0 : Fin 2) * 4000 ≤ (i 0).val ∧ (i 0).val < win2_5.index t (0 : Fin 2) * 4000 + 4000
      rw [e50]; show (i 0).val / 4000 * 4000 ≤ (i 0).val ∧ (i 0).val < (i 0).val / 4000 * 4000 + 4000; omega
    | ⟨1, _⟩ =>
      show win2_5.index t (1 : Fin 2) * 47 ≤ (i 1).val ∧ (i 1).val < win2_5.index t (1 : Fin 2) * 47 + 47
      rw [e51]; omega

end

end Cert.KernelIdeal.Hand

end
-- ==== Proof.Dense1.lean ====
/-
  Region 1 of the idealized kernel program, as a value: for ANY contents `V` of the TensorCore's buffers at the
  region's entry, the region's output array ends at the dense step of its five input arrays as `V` has them,
  `h · Ws + nm · Wn + b` then the maximum with zero (`Cert.Sage.dense1`, the host's operations on whole arrays).
  Grid point `t` holds rows `2000·t … 2000·t + 1999` of `h` and `nm` and all of `Ws`, `Wn`, `b`; element (p, q) of
  what it stores is the sum over `k` of `h[2000·t + p, k] · Ws[k, q]`, the same for `nm` and `Wn`, plus `b[q]` — which is
  element (2000·t + p, q) of the whole-array dense step, whose matrix products are the same sums over `k`. The 10 blocks of 2000 rows
  cover the 20000 rows.
-/
import proofs.«133832_j64287070486569_1_alg».proof.Proof.Gen.KernelIdeal.Frame
import proofs.«133832_j64287070486569_1_alg».proof.Proof.Gen.ReferenceIdeal.Read
import proofs.«133832_j64287070486569_1_alg».proof.Proof.Net
import proofs.«133832_j64287070486569_1_alg».proof.Proof.LibDotSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The block matrix product's operand indices, coordinate by coordinate -/

theorem lhsK1_0 (j : S2000x256.Idx) (q : dot_S2000x256_S256x256_S2000x256_1_0_0_1_n_n.contr.Idx) : (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsK1_1 (j : S2000x256.Idx) (q : dot_S2000x256_S256x256_S2000x256_1_0_0_1_n_n.contr.Idx) : (dot_S2000x256_S256x256_S2000x256_1_0_0_1_n_n.lhsIdx j q 1).val = (q ⟨0, by decide⟩).val :=
  dot_S2000x256_S256x256_S2000x256_1_0_0_1_n_n.lhsIdx_val_of_single rfl j q
theorem rhsK1_0 (j : S2000x256.Idx) (q : dot_S2000x256_S256x256_S2000x256_1_0_0_1_n_n.contr.Idx) : (dot_S2000x256_S256x256_S2000x256_1_0_0_1_n_n.rhsIdx j q 0).val = (q ⟨0, by decide⟩).val :=
  dot_S2000x256_S256x256_S2000x256_1_0_0_1_n_n.rhsIdx_val_of_single rfl j q
theorem rhsK1_1 (j : S2000x256.Idx) (q : dot_S2000x256_S256x256_S2000x256_1_0_0_1_n_n.contr.Idx) : (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block's matrix product at (p, q) is the whole arrays' at (i₀, q) when the block's row p is the array's row i₀ and
    the right operands agree: both are the sum over `k` of row times column. -/
theorem dotK1_eq (xl : FVec Ideal S2000x256 .bf16) (xr : FVec Ideal S256x256 .bf16)
    (h : FVec Ideal Cert.ReferenceIdeal.S20000x256 .f32) (Ws : FVec Ideal Cert.ReferenceIdeal.S256x256 .f32) (j : S2000x256.Idx) (i : Cert.ReferenceIdeal.S20000x256.Idx)
    (hj1 : (i 1).val = (j 1).val)
    (hl : ∀ (a : S2000x256.Idx) (a' : Cert.ReferenceIdeal.S20000x256.Idx), (a 0).val = (j 0).val → (a' 0).val = (i 0).val → (a' 1).val = (a 1).val → xl a = h a')
    (hr : ∀ (a : S256x256.Idx) (a' : Cert.ReferenceIdeal.S256x256.Idx), (a' 0).val = (a 0).val → (a' 1).val = (a 1).val → xr a = Ws a') :
    matmul dot_S2000x256_S256x256_S2000x256_1_0_0_1_n_n none xl xr (constant S2000x256 .f32 0x00000000#32) j = Host.dotGeneral Cert.ReferenceIdeal.dot_S20000x256_S256x256_S20000x256_1_0_0_1_n_n none h Ws i := by
  refine (Ideal.matmul_constant_zero_apply dot_S2000x256_S256x256_S2000x256_1_0_0_1_n_n none xl xr j).trans ?_
  refine Eq.trans ?_ (Ideal.dotGeneral_apply Cert.ReferenceIdeal.dot_S20000x256_S256x256_S20000x256_1_0_0_1_n_n none _ h Ws i).symm
  refine Cert.Sage.sum_contr_congr dot_S2000x256_S256x256_S2000x256_1_0_0_1_n_n Cert.ReferenceIdeal.dot_S20000x256_S256x256_S20000x256_1_0_0_1_n_n 256 rfl rfl rfl rfl _ _ fun k => ?_
  have hK := ValueIdx.contrEquiv1_symm_val dot_S2000x256_S256x256_S2000x256_1_0_0_1_n_n 256 rfl rfl k
  have hR := ValueIdx.contrEquiv1_symm_val Cert.ReferenceIdeal.dot_S20000x256_S256x256_S20000x256_1_0_0_1_n_n 256 rfl rfl k
  refine congrArg₂ (· * ·) (hl _ _ (lhsK1_0 _ _) (Cert.ReferenceIdeal.Read.lhs_main_v45_0 _ _) ?_) (hr _ _ ?_ ?_)
  · exact ((Cert.ReferenceIdeal.Read.lhs_main_v45_1 _ _).trans hR).trans ((lhsK1_1 _ _).trans hK).symm
  · exact ((Cert.ReferenceIdeal.Read.rhs_main_v45_0 _ _).trans hR).trans ((rhsK1_0 _ _).trans hK).symm
  · exact ((Cert.ReferenceIdeal.Read.rhs_main_v45_1 _ _).trans hj1).trans (rhsK1_1 _ _).symm

/-! ## What a grid point stores, at an index -/

/-- The body's stored value at (p, q) is the whole-array dense step at the array index `i` whose row the block's row p is
    and whose column is q, when the loaded blocks are the arrays' rows and the whole weight and bias arrays. -/
theorem pay1_at (x0 x1 : Vec Ideal S2000x256 .f32) (x2 x3 : Vec Ideal S256x256 .f32) (x4 : Vec Ideal S1x256 .f32)
    (h nm : FVec Ideal Cert.ReferenceIdeal.S20000x256 .f32) (Ws Wn : FVec Ideal Cert.ReferenceIdeal.S256x256 .f32) (b2 : FVec Ideal Cert.ReferenceIdeal.S1x256 .f32)
    (j : S2000x256.Idx) (i : Cert.ReferenceIdeal.S20000x256.Idx) (hj1 : (i 1).val = (j 1).val)
    (h0 : ∀ (a : S2000x256.Idx) (a' : Cert.ReferenceIdeal.S20000x256.Idx), (a 0).val = (j 0).val → (a' 0).val = (i 0).val → (a' 1).val = (a 1).val → x0 a = h a')
    (h1 : ∀ (a : S2000x256.Idx) (a' : Cert.ReferenceIdeal.S20000x256.Idx), (a 0).val = (j 0).val → (a' 0).val = (i 0).val → (a' 1).val = (a 1).val → x1 a = nm a')
    (h2 : ∀ (a : S256x256.Idx) (a' : Cert.ReferenceIdeal.S256x256.Idx), (a' 0).val = (a 0).val → (a' 1).val = (a 1).val → x2 a = Ws a')
    (h3 : ∀ (a : S256x256.Idx) (a' : Cert.ReferenceIdeal.S256x256.Idx), (a' 0).val = (a 0).val → (a' 1).val = (a 1).val → x3 a = Wn a')
    (h4 : ∀ (a : S1x256.Idx) (a' : Cert.ReferenceIdeal.S1x256.Idx), (a' 1).val = (a 1).val → x4 a = b2 a') :
    k1_pay1 x0 x1 x2 x3 x4 j = Cert.Sage.dense1 (F := Ideal) h nm Ws Wn b2 i := by
  unfold k1_pay1 Cert.Sage.dense1
  refine congrArg₂ FloatOps.maximumf (congrArg₂ FloatOps.addf (congrArg₂ FloatOps.addf ?_ ?_) ?_) ?_
  · exact dotK1_eq _ _ h Ws j i hj1
      (fun a a' e0 e1 e2 => (congrFun (shapeCast_self x0 shapeCasts_S2000x256_S2000x256) a).trans (h0 a a' e0 e1 e2)) h2
  · exact dotK1_eq _ _ nm Wn j i hj1
      (fun a a' e0 e1 e2 => (congrFun (shapeCast_self x1 shapeCasts_S2000x256_S2000x256) a).trans (h1 a a' e0 e1 e2)) h3
  · -- the bias row, broadcast down the rows on both sides
    have hq : (j 1).val < 256 := (j 1).isLt
    let k : S1x256.Idx := fun a => match a with | ⟨0, _⟩ => ⟨0, Nat.zero_lt_one⟩ | ⟨1, _⟩ => ⟨(j 1).val, hq⟩
    let k' : Cert.ReferenceIdeal.S1x256.Idx := fun a => match a with | ⟨0, _⟩ => ⟨0, Nat.zero_lt_one⟩ | ⟨1, _⟩ => ⟨(j 1).val, hq⟩
    refine (broadcastTo_apply _ broadcasts_S1x256_S2000x256 j k (fun a => match a with | ⟨0, _⟩ => rfl | ⟨1, _⟩ => rfl)).trans ?_
    refine Eq.trans ?_ (broadcastInDim_apply _ Cert.ReferenceIdeal.Gen.bcast_S1x256_S20000x256_0_1 b2 i k' (fun a => match a with | ⟨0, _⟩ => rfl | ⟨1, _⟩ => hj1.symm)).symm
    exact (congrFun (shapeCast_self x4 shapeCasts_S1x256_S1x256) k).trans (h4 k k' rfl)
  · exact (broadcastInDim_apply _ Cert.ReferenceIdeal.Gen.bcast_S_S20000x256 (constant Cert.ReferenceIdeal.S_ .f32 0x00000000#32) i (fun a => a.elim0) (fun a => a.elim0)).symm

/-! ## The grid: which rows a point holds -/

theorem hz1 : (![0, 0] : Fin 2 → Nat) = fun _ => 0 := funext fun a => by fin_cases a <;> rfl

/-- The printed index maps, decided over the grid's 10 points: the two row-blocked inputs move with the output, block
    `t` at point `t`; the weights and the bias are one block. -/
theorem idx_facts1 : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

set_option maxHeartbeats 4000000 in
/-- WHAT POINT `t` WRITES BACK is block `t` of the dense step of the five input arrays as the region finds them. -/
theorem flushed1_eq (c : Dev nD) (t : Fin cfg1.N) :
    (dat1 (F := Ideal) V c).flushed 5 t
      = ((cfg1.win 5).blk t).view.read (Elt Ideal) (Cert.Sage.dense1 (F := Ideal) (V c main_v39) (V c main_v38) (V c main_arg10) (V c main_arg11) (V c main_v40)) := by
  show (cfg1.win 5).cut (grid1.coords t) ((dat1 (F := Ideal) V c).after 5 t) = _
  rw [after1_5]
  unfold out1_5
  rw [View.canon_unit_zero hz1]
  simp only [View.ld_unit_zero (S := S2000x256) hz1, View.ld_unit_zero (S := S256x256) hz1, View.ld_unit_zero (S := S1x256) hz1]
  obtain ⟨e00, e01, e10, e11, e20, e21, e30, e31, e40, e41, e50, e51⟩ := idx_facts1 t
  funext j
  have hi0 : ((((cfg1.win 5).blk t).view.emb j) 0).val = win1_5.index t (0 : Fin 2) * 2000 + 1 * (j 0).val := rfl
  have hi1 : ((((cfg1.win 5).blk t).view.emb j) 1).val = win1_5.index t (1 : Fin 2) * 256 + 1 * (j 1).val := rfl
  refine pay1_at _ _ _ _ _ _ _ _ _ _ j (((cfg1.win 5).blk t).view.emb j) (by rw [hi1, e51]; omega) ?_ ?_ ?_ ?_ ?_
  · intro a a' ea0 ea0' ea1
    unfold iblk1
    rw [View.read_apply]
    refine congrArg (V c main_v39) (funext fun d => Fin.ext ?_)
    match d with
    | ⟨0, _⟩ => show win1_0.index t (0 : Fin 2) * 2000 + 1 * (a 0).val = (a' 0).val; rw [ea0', hi0, e00, ea0]
    | ⟨1, _⟩ => show win1_0.index t (1 : Fin 2) * 256 + 1 * (a 1).val = (a' 1).val; rw [ea1, e01]; omega
  · intro a a' ea0 ea0' ea1
    unfold iblk1
    rw [View.read_apply]
    refine congrArg (V c main_v38) (funext fun d => Fin.ext ?_)
    match d with
    | ⟨0, _⟩ => show win1_1.index t (0 : Fin 2) * 2000 + 1 * (a 0).val = (a' 0).val; rw [ea0', hi0, e10, ea0]
    | ⟨1, _⟩ => show win1_1.index t (1 : Fin 2) * 256 + 1 * (a 1).val = (a' 1).val; rw [ea1, e11]; omega
  · intro a a' ea0 ea1
    unfold iblk1
    rw [View.read_apply]
    refine congrArg (V c main_arg10) (funext fun d => Fin.ext ?_)
    match d with
    | ⟨0, _⟩ => show win1_2.index t (0 : Fin 2) * 256 + 1 * (a 0).val = (a' 0).val; rw [ea0, e20]; omega
    | ⟨1, _⟩ => show win1_2.index t (1 : Fin 2) * 256 + 1 * (a 1).val = (a' 1).val; rw [ea1, e21]; omega
  · intro a a' ea0 ea1
    unfold iblk1
    rw [View.read_apply]
    refine congrArg (V c main_arg11) (funext fun d => Fin.ext ?_)
    match d with
    | ⟨0, _⟩ => show win1_3.index t (0 : Fin 2) * 256 + 1 * (a 0).val = (a' 0).val; rw [ea0, e30]; omega
    | ⟨1, _⟩ => show win1_3.index t (1 : Fin 2) * 256 + 1 * (a 1).val = (a' 1).val; rw [ea1, e31]; omega
  · intro a a' ea1
    unfold iblk1
    rw [View.read_apply]
    refine congrArg (V c main_v40) (funext fun d => Fin.ext ?_)
    match d with
    | ⟨0, _⟩ =>
      show win1_4.index t (0 : Fin 2) * 1 + 1 * (a 0).val = (a' 0).val
      have ha : (a 0).val < 1 := (a 0).isLt
      have ha' : (a' 0).val < 1 := (a' 0).isLt
      rw [e40]; omega
    | ⟨1, _⟩ => show win1_4.index t (1 : Fin 2) * 256 + 1 * (a 1).val = (a' 1).val; rw [ea1, e41]; omega

/-- An index of the output array is in point `t`'s block iff each coordinate is in the block's range on its axis. -/
theorem mem_blk1 (t : Fin cfg1.N) (i : S20000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v41).slice (win1_5.rect t)).set ↔ _
  rw [View.set_slice_whole, Rect.mem_set_unit]
  exact Iff.rfl

/-- THE ARRAY the region leaves: the dense step of its five input arrays — row `r` is written by point `r / 2000`. -/
theorem final1 (c : Dev nD) :
    (dat1 (F := Ideal) V c).arrAt 5 cfg1.N = Cert.Sage.dense1 (F := Ideal) (V c main_v39) (V c main_v38) (V c main_arg10) (V c main_arg11) (V c main_v40) :=
  (dat1 (F := Ideal) V c).arrAt_eq_of_cover 5 _ (fun t _ => flushed1_eq V c t) fun i => by
    have hr : (i 0).val < 20000 := (i 0).isLt
    have hq : (i 1).val < 256 := (i 1).isLt
    let t : Fin cfg1.N := ⟨(i 0).val / 2000, by show (i 0).val / 2000 < 10; omega⟩
    obtain ⟨-, -, -, -, -, -, -, -, -, -, e50, e51⟩ := idx_facts1 t
    refine ⟨t, flush1_5 t, ?_⟩
    rw [mem_blk1]
    intro a
    match a with
    | ⟨0, _⟩ =>
      show win1_5.index t (0 : Fin 2) * 2000 ≤ (i 0).val ∧ (i 0).val < win1_5.index t (0 : Fin 2) * 2000 + 2000
      rw [e50]; show (i 0).val / 2000 * 2000 ≤ (i 0).val ∧ (i 0).val < (i 0).val / 2000 * 2000 + 2000; omega
    | ⟨1, _⟩ =>
      show win1_5.index t (1 : Fin 2) * 256 ≤ (i 1).val ∧ (i 1).val < win1_5.index t (1 : Fin 2) * 256 + 256
      rw [e51]; omega

end

end Cert.KernelIdeal.Hand

end
-- ==== Proof.Dense0.lean ====
/-
  Region 0 of the idealized kernel program, as a value: for ANY contents `V` of the TensorCore's buffers at the
  region's entry, the region's output array ends at the dense step of its five input arrays as `V` has them,
  `h · Ws + nm · Wn + b` then the maximum with zero (`Cert.Sage.dense0`, the host's operations on whole arrays).
  Grid point `t` holds rows `3000·t … 3000·t + 2999` of `h` and `nm` and all of `Ws`, `Wn`, `b`; element (p, q) of
  what it stores is the sum over `k` of `h[3000·t + p, k] · Ws[k, q]`, the same for `nm` and `Wn`, plus `b[q]` — which is
  element (3000·t + p, q) of the whole-array dense step, whose matrix products are the same sums over `k`. The 40 blocks of 3000 rows
  cover the 120000 rows.
-/
import proofs.«133832_j64287070486569_1_alg».proof.Proof.Gen.KernelIdeal.Frame
import proofs.«133832_j64287070486569_1_alg».proof.Proof.Gen.ReferenceIdeal.Read
import proofs.«133832_j64287070486569_1_alg».proof.Proof.Net
import proofs.«133832_j64287070486569_1_alg».proof.Proof.LibDotSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The block matrix product's operand indices, coordinate by coordinate -/

theorem lhsK0_0 (j : S3000x256.Idx) (q : dot_S3000x128_S128x256_S3000x256_1_0_0_1_n_n.contr.Idx) : (dot_S3000x128_S128x256_S3000x256_1_0_0_1_n_n.lhsIdx j q 0).val = (j 0).val := by
  unfold DotDims.lhsIdx
  rw [dif_neg (show ¬(0 : Fin S3000x128.rank) ∈ dot_S3000x128_S128x256_S3000x256_1_0_0_1_n_n.lhsBatch by decide), dif_pos (show (0 : Fin S3000x128.rank) ∈ dot_S3000x128_S128x256_S3000x256_1_0_0_1_n_n.lhsNonContracting by decide)]
  rfl
theorem lhsK0_1 (j : S3000x256.Idx) (q : dot_S3000x128_S128x256_S3000x256_1_0_0_1_n_n.contr.Idx) : (dot_S3000x128_S128x256_S3000x256_1_0_0_1_n_n.lhsIdx j q 1).val = (q ⟨0, by decide⟩).val :=
  dot_S3000x128_S128x256_S3000x256_1_0_0_1_n_n.lhsIdx_val_of_single rfl j q
theorem rhsK0_0 (j : S3000x256.Idx) (q : dot_S3000x128_S128x256_S3000x256_1_0_0_1_n_n.contr.Idx) : (dot_S3000x128_S128x256_S3000x256_1_0_0_1_n_n.rhsIdx j q 0).val = (q ⟨0, by decide⟩).val :=
  dot_S3000x128_S128x256_S3000x256_1_0_0_1_n_n.rhsIdx_val_of_single rfl j q
theorem rhsK0_1 (j : S3000x256.Idx) (q : dot_S3000x128_S128x256_S3000x256_1_0_0_1_n_n.contr.Idx) : (dot_S3000x128_S128x256_S3000x256_1_0_0_1_n_n.rhsIdx j q 1).val = (j 1).val := by
  unfold DotDims.rhsIdx
  rw [dif_neg (show ¬(1 : Fin S128x256.rank) ∈ dot_S3000x128_S128x256_S3000x256_1_0_0_1_n_n.rhsBatch by decide), dif_pos (show (1 : Fin S128x256.rank) ∈ dot_S3000x128_S128x256_S3000x256_1_0_0_1_n_n.rhsNonContracting by decide)]
  rfl

/-- A block's matrix product at (p, q) is the whole arrays' at (i₀, q) when the block's row p is the array's row i₀ and
    the right operands agree: both are the sum over `k` of row times column. -/
theorem dotK0_eq (xl : FVec Ideal S3000x128 .bf16) (xr : FVec Ideal S128x256 .bf16)
    (h : FVec Ideal Cert.ReferenceIdeal.S120000x128 .f32) (Ws : FVec Ideal Cert.ReferenceIdeal.S128x256 .f32) (j : S3000x256.Idx) (i : Cert.ReferenceIdeal.S120000x256.Idx)
    (hj1 : (i 1).val = (j 1).val)
    (hl : ∀ (a : S3000x128.Idx) (a' : Cert.ReferenceIdeal.S120000x128.Idx), (a 0).val = (j 0).val → (a' 0).val = (i 0).val → (a' 1).val = (a 1).val → xl a = h a')
    (hr : ∀ (a : S128x256.Idx) (a' : Cert.ReferenceIdeal.S128x256.Idx), (a' 0).val = (a 0).val → (a' 1).val = (a 1).val → xr a = Ws a') :
    matmul dot_S3000x128_S128x256_S3000x256_1_0_0_1_n_n none xl xr (constant S3000x256 .f32 0x00000000#32) j = Host.dotGeneral Cert.ReferenceIdeal.dot_S120000x128_S128x256_S120000x256_1_0_0_1_n_n none h Ws i := by
  refine (Ideal.matmul_constant_zero_apply dot_S3000x128_S128x256_S3000x256_1_0_0_1_n_n none xl xr j).trans ?_
  refine Eq.trans ?_ (Ideal.dotGeneral_apply Cert.ReferenceIdeal.dot_S120000x128_S128x256_S120000x256_1_0_0_1_n_n none _ h Ws i).symm
  refine Cert.Sage.sum_contr_congr dot_S3000x128_S128x256_S3000x256_1_0_0_1_n_n Cert.ReferenceIdeal.dot_S120000x128_S128x256_S120000x256_1_0_0_1_n_n 128 rfl rfl rfl rfl _ _ fun k => ?_
  have hK := ValueIdx.contrEquiv1_symm_val dot_S3000x128_S128x256_S3000x256_1_0_0_1_n_n 128 rfl rfl k
  have hR := ValueIdx.contrEquiv1_symm_val Cert.ReferenceIdeal.dot_S120000x128_S128x256_S120000x256_1_0_0_1_n_n 128 rfl rfl k
  refine congrArg₂ (· * ·) (hl _ _ (lhsK0_0 _ _) (Cert.ReferenceIdeal.Read.lhs_main_v19_0 _ _) ?_) (hr _ _ ?_ ?_)
  · exact ((Cert.ReferenceIdeal.Read.lhs_main_v19_1 _ _).trans hR).trans ((lhsK0_1 _ _).trans hK).symm
  · exact ((Cert.ReferenceIdeal.Read.rhs_main_v19_0 _ _).trans hR).trans ((rhsK0_0 _ _).trans hK).symm
  · exact ((Cert.ReferenceIdeal.Read.rhs_main_v19_1 _ _).trans hj1).trans (rhsK0_1 _ _).symm

/-! ## What a grid point stores, at an index -/

/-- The body's stored value at (p, q) is the whole-array dense step at the array index `i` whose row the block's row p is
    and whose column is q, when the loaded blocks are the arrays' rows and the whole weight and bias arrays. -/
theorem pay0_at (x0 x1 : Vec Ideal S3000x128 .f32) (x2 x3 : Vec Ideal S128x256 .f32) (x4 : Vec Ideal S1x256 .f32)
    (h nm : FVec Ideal Cert.ReferenceIdeal.S120000x128 .f32) (Ws Wn : FVec Ideal Cert.ReferenceIdeal.S128x256 .f32) (b2 : FVec Ideal Cert.ReferenceIdeal.S1x256 .f32)
    (j : S3000x256.Idx) (i : Cert.ReferenceIdeal.S120000x256.Idx) (hj1 : (i 1).val = (j 1).val)
    (h0 : ∀ (a : S3000x128.Idx) (a' : Cert.ReferenceIdeal.S120000x128.Idx), (a 0).val = (j 0).val → (a' 0).val = (i 0).val → (a' 1).val = (a 1).val → x0 a = h a')
    (h1 : ∀ (a : S3000x128.Idx) (a' : Cert.ReferenceIdeal.S120000x128.Idx), (a 0).val = (j 0).val → (a' 0).val = (i 0).val → (a' 1).val = (a 1).val → x1 a = nm a')
    (h2 : ∀ (a : S128x256.Idx) (a' : Cert.ReferenceIdeal.S128x256.Idx), (a' 0).val = (a 0).val → (a' 1).val = (a 1).val → x2 a = Ws a')
    (h3 : ∀ (a : S128x256.Idx) (a' : Cert.ReferenceIdeal.S128x256.Idx), (a' 0).val = (a 0).val → (a' 1).val = (a 1).val → x3 a = Wn a')
    (h4 : ∀ (a : S1x256.Idx) (a' : Cert.ReferenceIdeal.S1x256.Idx), (a' 1).val = (a 1).val → x4 a = b2 a') :
    k0_pay1 x0 x1 x2 x3 x4 j = Cert.Sage.dense0 (F := Ideal) h nm Ws Wn b2 i := by
  unfold k0_pay1 Cert.Sage.dense0
  refine congrArg₂ FloatOps.maximumf (congrArg₂ FloatOps.addf (congrArg₂ FloatOps.addf ?_ ?_) ?_) ?_
  · exact dotK0_eq _ _ h Ws j i hj1
      (fun a a' e0 e1 e2 => (congrFun (shapeCast_self x0 shapeCasts_S3000x128_S3000x128) a).trans (h0 a a' e0 e1 e2)) h2
  · exact dotK0_eq _ _ nm Wn j i hj1
      (fun a a' e0 e1 e2 => (congrFun (shapeCast_self x1 shapeCasts_S3000x128_S3000x128) a).trans (h1 a a' e0 e1 e2)) h3
  · -- the bias row, broadcast down the rows on both sides
    have hq : (j 1).val < 256 := (j 1).isLt
    let k : S1x256.Idx := fun a => match a with | ⟨0, _⟩ => ⟨0, Nat.zero_lt_one⟩ | ⟨1, _⟩ => ⟨(j 1).val, hq⟩
    let k' : Cert.ReferenceIdeal.S1x256.Idx := fun a => match a with | ⟨0, _⟩ => ⟨0, Nat.zero_lt_one⟩ | ⟨1, _⟩ => ⟨(j 1).val, hq⟩
    refine (broadcastTo_apply _ broadcasts_S1x256_S3000x256 j k (fun a => match a with | ⟨0, _⟩ => rfl | ⟨1, _⟩ => rfl)).trans ?_
    refine Eq.trans ?_ (broadcastInDim_apply _ Cert.ReferenceIdeal.Gen.bcast_S1x256_S120000x256_0_1 b2 i k' (fun a => match a with | ⟨0, _⟩ => rfl | ⟨1, _⟩ => hj1.symm)).symm
    exact (congrFun (shapeCast_self x4 shapeCasts_S1x256_S1x256) k).trans (h4 k k' rfl)
  · exact (broadcastInDim_apply _ Cert.ReferenceIdeal.Gen.bcast_S_S120000x256 (constant Cert.ReferenceIdeal.S_ .f32 0x00000000#32) i (fun a => a.elim0) (fun a => a.elim0)).symm

/-! ## The grid: which rows a point holds -/

theorem hz0 : (![0, 0] : Fin 2 → Nat) = fun _ => 0 := funext fun a => by fin_cases a <;> rfl

/-- The printed index maps, decided over the grid's 40 points: the two row-blocked inputs move with the output, block
    `t` at point `t`; the weights and the bias are one block. -/
theorem idx_facts0 : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b))

set_option maxHeartbeats 4000000 in
/-- WHAT POINT `t` WRITES BACK is block `t` of the dense step of the five input arrays as the region finds them. -/
theorem flushed0_eq (c : Dev nD) (t : Fin cfg0.N) :
    (dat0 (F := Ideal) V c).flushed 5 t
      = ((cfg0.win 5).blk t).view.read (Elt Ideal) (Cert.Sage.dense0 (F := Ideal) (V c main_v18) (V c main_v17) (V c main_arg7) (V c main_arg8) (V c main_v19)) := by
  show (cfg0.win 5).cut (grid0.coords t) ((dat0 (F := Ideal) V c).after 5 t) = _
  rw [after0_5]
  unfold out0_5
  rw [View.canon_unit_zero hz0]
  simp only [View.ld_unit_zero (S := S3000x128) hz0, View.ld_unit_zero (S := S128x256) hz0, View.ld_unit_zero (S := S1x256) hz0]
  obtain ⟨e00, e01, e10, e11, e20, e21, e30, e31, e40, e41, e50, e51⟩ := idx_facts0 t
  funext j
  have hi0 : ((((cfg0.win 5).blk t).view.emb j) 0).val = win0_5.index t (0 : Fin 2) * 3000 + 1 * (j 0).val := rfl
  have hi1 : ((((cfg0.win 5).blk t).view.emb j) 1).val = win0_5.index t (1 : Fin 2) * 256 + 1 * (j 1).val := rfl
  refine pay0_at _ _ _ _ _ _ _ _ _ _ j (((cfg0.win 5).blk t).view.emb j) (by rw [hi1, e51]; omega) ?_ ?_ ?_ ?_ ?_
  · intro a a' ea0 ea0' ea1
    unfold iblk0
    rw [View.read_apply]
    refine congrArg (V c main_v18) (funext fun d => Fin.ext ?_)
    match d with
    | ⟨0, _⟩ => show win0_0.index t (0 : Fin 2) * 3000 + 1 * (a 0).val = (a' 0).val; rw [ea0', hi0, e00, ea0]
    | ⟨1, _⟩ => show win0_0.index t (1 : Fin 2) * 128 + 1 * (a 1).val = (a' 1).val; rw [ea1, e01]; omega
  · intro a a' ea0 ea0' ea1
    unfold iblk0
    rw [View.read_apply]
    refine congrArg (V c main_v17) (funext fun d => Fin.ext ?_)
    match d with
    | ⟨0, _⟩ => show win0_1.index t (0 : Fin 2) * 3000 + 1 * (a 0).val = (a' 0).val; rw [ea0', hi0, e10, ea0]
    | ⟨1, _⟩ => show win0_1.index t (1 : Fin 2) * 128 + 1 * (a 1).val = (a' 1).val; rw [ea1, e11]; omega
  · intro a a' ea0 ea1
    unfold iblk0
    rw [View.read_apply]
    refine congrArg (V c main_arg7) (funext fun d => Fin.ext ?_)
    match d with
    | ⟨0, _⟩ => show win0_2.index t (0 : Fin 2) * 128 + 1 * (a 0).val = (a' 0).val; rw [ea0, e20]; omega
    | ⟨1, _⟩ => show win0_2.index t (1 : Fin 2) * 256 + 1 * (a 1).val = (a' 1).val; rw [ea1, e21]; omega
  · intro a a' ea0 ea1
    unfold iblk0
    rw [View.read_apply]
    refine congrArg (V c main_arg8) (funext fun d => Fin.ext ?_)
    match d with
    | ⟨0, _⟩ => show win0_3.index t (0 : Fin 2) * 128 + 1 * (a 0).val = (a' 0).val; rw [ea0, e30]; omega
    | ⟨1, _⟩ => show win0_3.index t (1 : Fin 2) * 256 + 1 * (a 1).val = (a' 1).val; rw [ea1, e31]; omega
  · intro a a' ea1
    unfold iblk0
    rw [View.read_apply]
    refine congrArg (V c main_v19) (funext fun d => Fin.ext ?_)
    match d with
    | ⟨0, _⟩ =>
      show win0_4.index t (0 : Fin 2) * 1 + 1 * (a 0).val = (a' 0).val
      have ha : (a 0).val < 1 := (a 0).isLt
      have ha' : (a' 0).val < 1 := (a' 0).isLt
      rw [e40]; omega
    | ⟨1, _⟩ => show win0_4.index t (1 : Fin 2) * 256 + 1 * (a 1).val = (a' 1).val; rw [ea1, e41]; omega

/-- An index of the output array is in point `t`'s block iff each coordinate is in the block's range on its axis. -/
theorem mem_blk0 (t : Fin cfg0.N) (i : S120000x256.Idx) :
    i ∈ ((cfg0.win 5).blk t).view.set ↔ ∀ a : Fin 2, win0_5.index t a * S3000x256.size a ≤ (i a).val ∧ (i a).val < win0_5.index t a * S3000x256.size a + S3000x256.size a := by
  show i ∈ ((View.whole main_v20).slice (win0_5.rect t)).set ↔ _
  rw [View.set_slice_whole, Rect.mem_set_unit]
  exact Iff.rfl

/-- THE ARRAY the region leaves: the dense step of its five input arrays — row `r` is written by point `r / 3000`. -/
theorem final0 (c : Dev nD) :
    (dat0 (F := Ideal) V c).arrAt 5 cfg0.N = Cert.Sage.dense0 (F := Ideal) (V c main_v18) (V c main_v17) (V c main_arg7) (V c main_arg8) (V c main_v19) :=
  (dat0 (F := Ideal) V c).arrAt_eq_of_cover 5 _ (fun t _ => flushed0_eq V c t) fun i => by
    have hr : (i 0).val < 120000 := (i 0).isLt
    have hq : (i 1).val < 256 := (i 1).isLt
    let t : Fin cfg0.N := ⟨(i 0).val / 3000, by show (i 0).val / 3000 < 40; omega⟩
    obtain ⟨-, -, -, -, -, -, -, -, -, -, e50, e51⟩ := idx_facts0 t
    refine ⟨t, flush0_5 t, ?_⟩
    rw [mem_blk0]
    intro a
    match a with
    | ⟨0, _⟩ =>
      show win0_5.index t (0 : Fin 2) * 3000 ≤ (i 0).val ∧ (i 0).val < win0_5.index t (0 : Fin 2) * 3000 + 3000
      rw [e50]; show (i 0).val / 3000 * 3000 ≤ (i 0).val ∧ (i 0).val < (i 0).val / 3000 * 3000 + 3000; omega
    | ⟨1, _⟩ =>
      show win0_5.index t (1 : Fin 2) * 256 ≤ (i 1).val ∧ (i 1).val < win0_5.index t (1 : Fin 2) * 256 + 256
      rw [e51]; omega

end

end Cert.KernelIdeal.Hand

end
-- ==== Proof.Layer0.lean ====
/-
  Layer 0 of the idealized kernel program: the host operations before region 0 build the region's five input arrays —
  the destination rows' own features (a slice), the mean of their neighbours' (the edge chain `Cert.Sage.agg0`), the two
  weight matrices as they are, the bias as a one-row matrix — from the launch memory; the region
  then leaves the dense step of those five (`final0`). So region 0's output array ends at `Cert.Sage.layer0` of
  the arguments.
-/
import proofs.«133832_j64287070486569_1_alg».proof.Proof.Dense0
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Region 0's input arrays at its entry -/

theorem V1_own (c : Dev nD) : V1 m ρ c main_v18 = Cert.Sage.own0 (F := Ideal) (m ((c.tc : Thread nD τ).loc main_arg0)) := by
  dsimp only [V1, W1, hostOps0]
  after_results
  rfl

set_option maxHeartbeats 16000000 in
theorem V1_agg (c : Dev nD) : V1 m ρ c main_v17 = Cert.Sage.agg0 (F := Ideal) (m ((c.tc : Thread nD τ).loc main_arg0)) (m ((c.tc : Thread nD τ).loc main_arg1)) (m ((c.tc : Thread nD τ).loc main_arg2)) := by
  dsimp only [V1, W1, hostOps0]
  after_results
  rfl

theorem V1_Ws (c : Dev nD) : V1 m ρ c main_arg7 = (m ((c.tc : Thread nD τ).loc main_arg7)) := by
  dsimp only [V1, W1, hostOps0]
  after_results

theorem V1_Wn (c : Dev nD) : V1 m ρ c main_arg8 = (m ((c.tc : Thread nD τ).loc main_arg8)) := by
  dsimp only [V1, W1, hostOps0]
  after_results

theorem V1_bias (c : Dev nD) : V1 m ρ c main_v19 = Cert.Sage.biasRow0 (F := Ideal) (m ((c.tc : Thread nD τ).loc main_arg9)) := by
  dsimp only [V1, W1, hostOps0]
  after_results
  funext i
  show shapeCast S1x256 (m ((c.tc : Thread nD τ).loc main_arg9)) shapeCasts_S256_S1x256 i = _
  exact congrFun (Cert.Sage.reshape_row_eq_bcast 256 (by decide) _ _ _) i

/-! ## Region 0's output array -/

/-- At region 0's exit its output array holds layer 0 of the arguments. -/
theorem out0 (c : Dev nD) : W2 m ρ c (Proc.devRef .tc main_v20)
    = Cert.Sage.layer0 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) := by
  refine (W2_arr m ρ c 5).trans ?_
  rw [final0 (V1 m ρ) c, V1_own, V1_agg, V1_Ws, V1_Wn, V1_bias]
  rfl

end Cert.KernelIdeal.Hand

end
-- ==== Proof.Layer1.lean ====
/-
  Layer 1 of the idealized kernel program: the host operations before region 1 build the region's five input arrays —
  the destination rows' own features (a slice), the mean of their neighbours' (the edge chain `Cert.Sage.agg1`), the two
  weight matrices as they are, the bias as a one-row matrix — from what region 0 left and the launch memory; the region
  then leaves the dense step of those five (`final1`). So region 1's output array ends at `Cert.Sage.layer1` of
  the previous layer's output and the arguments.
-/
import proofs.«133832_j64287070486569_1_alg».proof.Proof.Dense1
import proofs.«133832_j64287070486569_1_alg».proof.Proof.Layer0
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments this layer reads are still as launched at the previous region's exit -/

theorem W2_arg3 (c : Dev nD) : W2 m ρ c (Proc.devRef .tc main_arg3) = m ((c.tc : Thread nD τ).loc main_arg3) :=
  (W2_of_ne m ρ c main_arg3 (by decide)).trans (by dsimp only [W1, hostOps0]; after_results)
theorem W2_arg4 (c : Dev nD) : W2 m ρ c (Proc.devRef .tc main_arg4) = m ((c.tc : Thread nD τ).loc main_arg4) :=
  (W2_of_ne m ρ c main_arg4 (by decide)).trans (by dsimp only [W1, hostOps0]; after_results)
theorem W2_arg10 (c : Dev nD) : W2 m ρ c (Proc.devRef .tc main_arg10) = m ((c.tc : Thread nD τ).loc main_arg10) :=
  (W2_of_ne m ρ c main_arg10 (by decide)).trans (by dsimp only [W1, hostOps0]; after_results)
theorem W2_arg11 (c : Dev nD) : W2 m ρ c (Proc.devRef .tc main_arg11) = m ((c.tc : Thread nD τ).loc main_arg11) :=
  (W2_of_ne m ρ c main_arg11 (by decide)).trans (by dsimp only [W1, hostOps0]; after_results)
theorem W2_arg12 (c : Dev nD) : W2 m ρ c (Proc.devRef .tc main_arg12) = m ((c.tc : Thread nD τ).loc main_arg12) :=
  (W2_of_ne m ρ c main_arg12 (by decide)).trans (by dsimp only [W1, hostOps0]; after_results)

/-! ## … and those the last layer reads -/

theorem W2_arg5 (c : Dev nD) : W2 m ρ c (Proc.devRef .tc main_arg5) = m ((c.tc : Thread nD τ).loc main_arg5) :=
  (W2_of_ne m ρ c main_arg5 (by decide)).trans (by dsimp only [W1, hostOps0]; after_results)
theorem W2_arg6 (c : Dev nD) : W2 m ρ c (Proc.devRef .tc main_arg6) = m ((c.tc : Thread nD τ).loc main_arg6) :=
  (W2_of_ne m ρ c main_arg6 (by decide)).trans (by dsimp only [W1, hostOps0]; after_results)
theorem W2_arg13 (c : Dev nD) : W2 m ρ c (Proc.devRef .tc main_arg13) = m ((c.tc : Thread nD τ).loc main_arg13) :=
  (W2_of_ne m ρ c main_arg13 (by decide)).trans (by dsimp only [W1, hostOps0]; after_results)
theorem W2_arg14 (c : Dev nD) : W2 m ρ c (Proc.devRef .tc main_arg14) = m ((c.tc : Thread nD τ).loc main_arg14) :=
  (W2_of_ne m ρ c main_arg14 (by decide)).trans (by dsimp only [W1, hostOps0]; after_results)
theorem W2_arg15 (c : Dev nD) : W2 m ρ c (Proc.devRef .tc main_arg15) = m ((c.tc : Thread nD τ).loc main_arg15) :=
  (W2_of_ne m ρ c main_arg15 (by decide)).trans (by dsimp only [W1, hostOps0]; after_results)

/-! ## Region 1's input arrays at its entry -/

theorem V3_own (c : Dev nD) : V3 m ρ c main_v39 = Cert.Sage.own1 (F := Ideal) (W2 m ρ c (Proc.devRef .tc main_v20)) := by
  dsimp only [V3, W3, hostOps1]
  after_results
  rfl

set_option maxHeartbeats 16000000 in
theorem V3_agg (c : Dev nD) : V3 m ρ c main_v38 = Cert.Sage.agg1 (F := Ideal) (W2 m ρ c (Proc.devRef .tc main_v20)) (W2 m ρ c (Proc.devRef .tc main_arg3)) (W2 m ρ c (Proc.devRef .tc main_arg4)) := by
  dsimp only [V3, W3, hostOps1]
  after_results
  rfl

theorem V3_Ws (c : Dev nD) : V3 m ρ c main_arg10 = (W2 m ρ c (Proc.devRef .tc main_arg10)) := by
  dsimp only [V3, W3, hostOps1]
  after_results

theorem V3_Wn (c : Dev nD) : V3 m ρ c main_arg11 = (W2 m ρ c (Proc.devRef .tc main_arg11)) := by
  dsimp only [V3, W3, hostOps1]
  after_results

theorem V3_bias (c : Dev nD) : V3 m ρ c main_v40 = Cert.Sage.biasRow1 (F := Ideal) (W2 m ρ c (Proc.devRef .tc main_arg12)) := by
  dsimp only [V3, W3, hostOps1]
  after_results
  funext i
  show shapeCast S1x256 (W2 m ρ c (Proc.devRef .tc main_arg12)) shapeCasts_S256_S1x256 i = _
  exact congrFun (Cert.Sage.reshape_row_eq_bcast 256 (by decide) _ _ _) i

/-! ## Region 1's output array -/

/-- At region 1's exit its output array holds layer 1 of what the layer before left and the arguments. -/
theorem out1 (c : Dev nD) : W4 m ρ c (Proc.devRef .tc main_v41)
    = Cert.Sage.layer1 (F := Ideal) (Cert.Sage.layer0 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))) (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) := by
  refine (W4_arr m ρ c 5).trans ?_
  rw [final1 (V3 m ρ) c, V3_own, V3_agg, V3_Ws, V3_Wn, V3_bias, W2_arg3, W2_arg4, W2_arg10, W2_arg11, W2_arg12, out0]
  rfl

end Cert.KernelIdeal.Hand

end
-- ==== Proof.Layer2.lean ====
/-
  Layer 2 of the idealized kernel program: the host operations before region 2 build the region's five input arrays —
  the destination rows' own features (a slice), the mean of their neighbours' (the edge chain `Cert.Sage.agg2`), the two
  weight matrices as they are, the bias as a one-row matrix — from what region 1 left and the launch memory; the region
  then leaves the dense step of those five (`final2`). So region 2's output array ends at `Cert.Sage.layer2` of
  the previous layer's output and the arguments.
-/
import proofs.«133832_j64287070486569_1_alg».proof.Proof.Dense2
import proofs.«133832_j64287070486569_1_alg».proof.Proof.Layer1
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments this layer reads are still as launched at the previous region's exit -/

theorem W4_arg5 (c : Dev nD) : W4 m ρ c (Proc.devRef .tc main_arg5) = m ((c.tc : Thread nD τ).loc main_arg5) :=
  (W4_of_ne m ρ c main_arg5 (by decide)).trans ((by dsimp only [W3, hostOps1]; after_results : W3 m ρ c (Proc.devRef .tc main_arg5) = W2 m ρ c (Proc.devRef .tc main_arg5)).trans (W2_arg5 m ρ c))
theorem W4_arg6 (c : Dev nD) : W4 m ρ c (Proc.devRef .tc main_arg6) = m ((c.tc : Thread nD τ).loc main_arg6) :=
  (W4_of_ne m ρ c main_arg6 (by decide)).trans ((by dsimp only [W3, hostOps1]; after_results : W3 m ρ c (Proc.devRef .tc main_arg6) = W2 m ρ c (Proc.devRef .tc main_arg6)).trans (W2_arg6 m ρ c))
theorem W4_arg13 (c : Dev nD) : W4 m ρ c (Proc.devRef .tc main_arg13) = m ((c.tc : Thread nD τ).loc main_arg13) :=
  (W4_of_ne m ρ c main_arg13 (by decide)).trans ((by dsimp only [W3, hostOps1]; after_results : W3 m ρ c (Proc.devRef .tc main_arg13) = W2 m ρ c (Proc.devRef .tc main_arg13)).trans (W2_arg13 m ρ c))
theorem W4_arg14 (c : Dev nD) : W4 m ρ c (Proc.devRef .tc main_arg14) = m ((c.tc : Thread nD τ).loc main_arg14) :=
  (W4_of_ne m ρ c main_arg14 (by decide)).trans ((by dsimp only [W3, hostOps1]; after_results : W3 m ρ c (Proc.devRef .tc main_arg14) = W2 m ρ c (Proc.devRef .tc main_arg14)).trans (W2_arg14 m ρ c))
theorem W4_arg15 (c : Dev nD) : W4 m ρ c (Proc.devRef .tc main_arg15) = m ((c.tc : Thread nD τ).loc main_arg15) :=
  (W4_of_ne m ρ c main_arg15 (by decide)).trans ((by dsimp only [W3, hostOps1]; after_results : W3 m ρ c (Proc.devRef .tc main_arg15) = W2 m ρ c (Proc.devRef .tc main_arg15)).trans (W2_arg15 m ρ c))

/-! ## Region 2's input arrays at its entry -/

theorem V5_own (c : Dev nD) : V5 m ρ c main_v60 = Cert.Sage.own2 (F := Ideal) (W4 m ρ c (Proc.devRef .tc main_v41)) := by
  dsimp only [V5, W5, hostOps2]
  after_results
  rfl

set_option maxHeartbeats 16000000 in
theorem V5_agg (c : Dev nD) : V5 m ρ c main_v59 = Cert.Sage.agg2 (F := Ideal) (W4 m ρ c (Proc.devRef .tc main_v41)) (W4 m ρ c (Proc.devRef .tc main_arg5)) (W4 m ρ c (Proc.devRef .tc main_arg6)) := by
  dsimp only [V5, W5, hostOps2]
  after_results
  rfl

theorem V5_Ws (c : Dev nD) : V5 m ρ c main_arg13 = (W4 m ρ c (Proc.devRef .tc main_arg13)) := by
  dsimp only [V5, W5, hostOps2]
  after_results

theorem V5_Wn (c : Dev nD) : V5 m ρ c main_arg14 = (W4 m ρ c (Proc.devRef .tc main_arg14)) := by
  dsimp only [V5, W5, hostOps2]
  after_results

theorem V5_bias (c : Dev nD) : V5 m ρ c main_v61 = Cert.Sage.biasRow2 (F := Ideal) (W4 m ρ c (Proc.devRef .tc main_arg15)) := by
  dsimp only [V5, W5, hostOps2]
  after_results
  funext i
  show shapeCast S1x47 (W4 m ρ c (Proc.devRef .tc main_arg15)) shapeCasts_S47_S1x47 i = _
  exact congrFun (Cert.Sage.reshape_row_eq_bcast 47 (by decide) _ _ _) i

/-! ## Region 2's output array -/

/-- At region 2's exit its output array holds layer 2 of what the layer before left and the arguments. -/
theorem out2 (c : Dev nD) : W6 m ρ c (Proc.devRef .tc main_v62)
    = Cert.Sage.layer2 (F := Ideal) (Cert.Sage.layer1 (F := Ideal) (Cert.Sage.layer0 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))) (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12))) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15)) := by
  refine (W6_arr m ρ c 5).trans ?_
  rw [final2 (V5 m ρ) c, V5_own, V5_agg, V5_Ws, V5_Wn, V5_bias, W4_arg5, W4_arg6, W4_arg13, W4_arg14, W4_arg15, out1]
  rfl

end Cert.KernelIdeal.Hand

end
-- ==== Proof.lean ====
/-
  The certificate of a three-layer mean-aggregation graph network (GraphSAGE) on 400000 nodes: each layer maps node
  features `h` to `h[:n] · Ws + mean(h over incoming edges) · Wn + b`, the first two followed by a maximum with zero.
  The kernel program computes each layer's edge part (gather, scatter-add, division by the edge count) with host
  operations and its dense part in a pipelined kernel over blocks of rows; the reference computes everything with host
  operations on whole arrays.

  At the ideal values the two agree exactly, for every input: a change of float format is the identity; a block's
  matrix product into a zero accumulator and the host's whole-array product are the same sum over the contracted axis,
  row by row (Proof/Dense0.lean … Dense2.lean), and the blocks of rows cover the array; the edge part is the same host
  function in both programs and is never opened (Proof/Layer0.lean … Layer2.lean carry it through the three kernel
  regions; Proof/Net.lean folds the reference's term into the same three layers). No sum is regrouped, so no finiteness
  of the inputs is used. The kernel's idealization rewrote nothing (`preserves` is `True`); the two kernel programs'
  frames are the generated ones, the reference's is its generated run with the result dropped.
-/
import proofs.«133832_j64287070486569_1_alg».proof.Defs
import proofs.«133832_j64287070486569_1_alg».proof.Proof.Gen.Kernel
import proofs.«133832_j64287070486569_1_alg».proof.Proof.Gen.Kernel.Skeleton
import proofs.«133832_j64287070486569_1_alg».proof.Proof.Gen.Kernel.Launch
import proofs.«133832_j64287070486569_1_alg».proof.Proof.Gen.Kernel.Points
import proofs.«133832_j64287070486569_1_alg».proof.Proof.Gen.Kernel.Frame
import proofs.«133832_j64287070486569_1_alg».proof.Proof.Gen.KernelIdeal
import proofs.«133832_j64287070486569_1_alg».proof.Proof.Gen.KernelIdeal.Skeleton
import proofs.«133832_j64287070486569_1_alg».proof.Proof.Gen.KernelIdeal.Launch
import proofs.«133832_j64287070486569_1_alg».proof.Proof.Gen.KernelIdeal.Points
import proofs.«133832_j64287070486569_1_alg».proof.Proof.Gen.KernelIdeal.Frame
import proofs.«133832_j64287070486569_1_alg».proof.Proof.Gen.ReferenceIdeal
import proofs.«133832_j64287070486569_1_alg».proof.Proof.Gen.ReferenceIdeal.Run
import proofs.«133832_j64287070486569_1_alg».proof.Proof.Gen.ReferenceIdeal.Read
import proofs.«133832_j64287070486569_1_alg».proof.Proof.Gen.Pre_finite_inputs
import proofs.«133832_j64287070486569_1_alg».proof.Proof.Net
import proofs.«133832_j64287070486569_1_alg».proof.Proof.KernelRun
import proofs.«133832_j64287070486569_1_alg».proof.Proof.Layer2
import Idealize.ShloMosaic.Adequacy
import Idealize.ShloMosaic.Init

noncomputable section

namespace Cert.Proof

open Idealize.ShloMosaic Idealize.SL.Sem

/-- The kernel program as printed runs, and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the sixteen arguments both idealized programs end with the result array at the network
    `Cert.Sage.net` of the arguments: the kernel program region by region (`out2`), the reference by its run's term
    (`ref_eq_net`). -/
theorem algebraic : Cert.algebraic_KernelIdeal_ReferenceIdeal := by
  intro m ρ m' ρ' _ hagree
  refine ⟨fun c => Cert.Sage.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Hand.out2 m ρ c), (h c).2⟩) (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.Sage.ref_eq_net, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
